-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1024x1 : Shape := ⟨2, ![1024, 1]⟩

abbrev nBuf : Space → Nat
  | .hbm => 20
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v9_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Kernel.Proj.lean ====
/-
  The first kernel region: the three linear layers. At every grid point the body loads a 512-row block of the
  activations and the three transposed weight matrices and bias rows whole, and stores one 512-row block of each of the
  three products; it keeps nothing between points. Stated here: what each output block holds after the body as a function
  of the input blocks, the body's triple, and the obligation the pipeline asks of the body at every point.
-/
import proofs.«104552_j73632919323068_2_alg».proof.Proof.Gen.Kernel.Launch
import proofs.«104552_j73632919323068_2_alg».proof.Proof.Gen.Kernel.Skeleton
import proofs.«104552_j73632919323068_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S512x1024 := (Rect.unit (s := S512x1024) ![0, 0] S512x1024.size inb_S512x1024_S512x1024_0_0)
abbrev rW : Rect S1024x1024 := (Rect.unit (s := S1024x1024) ![0, 0] S1024x1024.size inb_S1024x1024_S1024x1024_0_0)
abbrev rB : Rect S1x1024 := (Rect.unit (s := S1x1024) ![0, 0] S1x1024.size inb_S1x1024_S1x1024_0_0)

/-- Output window 7's staging buffer after the body: its one store, over the loaded blocks. -/
def out0_7 (x0 : Vec F S512x1024 .f32) (xw : Vec F S1024x1024 .bf16) (xb : Vec F S1x1024 .f32) : Vec F S512x1024 .bf16 :=
  View.canon [⟨rX, k0_pay2 (View.ld x0 rX) (View.ld xw rW) (View.ld xb rB)⟩]

theorem cover0_7 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-- Output window 8's staging buffer after the body: its one store, over the loaded blocks. -/
def out0_8 (x0 : Vec F S512x1024 .f32) (xw : Vec F S1024x1024 .bf16) (xb : Vec F S1x1024 .f32) : Vec F S512x1024 .bf16 :=
  View.canon [⟨rX, k0_pay3 (View.ld x0 rX) (View.ld xw rW) (View.ld xb rB)⟩]

theorem cover0_8 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-- Output window 9's staging buffer after the body: its one store, over the loaded blocks. -/
def out0_9 (x0 : Vec F S512x1024 .f32) (xw : Vec F S1024x1024 .bf16) (xb : Vec F S1x1024 .f32) : Vec F S512x1024 .bf16 :=
  View.canon [⟨rX, k0_pay4 (View.ld x0 rX) (View.ld xw rW) (View.ld xb rB)⟩]

theorem cover0_9 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 4000000 in
/-- The body on whole staging memrefs, the inputs' at contents `x·` and the outputs' at anything, runs to the continuation
    holding the inputs' as they were and each output's at its named contents. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out0_7 x0 x1 x4)
            ∗ owns (c : Thread nD τ) arg9 fullShare (out0_8 x0 x2 x5)
            ∗ owns (c : Thread nD τ) arg10 fullShare (out0_9 x0 x3 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-- The proof data of the first pipeline on core `c`: the arrays as the region finds them; after the body each input's
    buffer at its block and each output's at its named contents; nothing kept between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.FlashKit.lean ====
/-
  The second kernel region: attention with a running softmax. The grid is 8 query tiles by 8 key tiles; a point loads
  one 1024-row block each of Q, K and V and keeps, between the points of one query tile, three scratch buffers: the
  running row maximum, the running denominator and the running numerator. At the first key tile the scratch is reset, at
  every key tile it is updated, and at the last key tile the quotient is stored into the output block (at the other
  points the output window is idle and not written back). Stated here: the two branch conditions in closed form over the
  grid, where the output window is idle, the memrefs the body is called with, and the input windows' blocks.
-/
import proofs.«104552_j73632919323068_2_alg».proof.Proof.Gen.Kernel.Launch
import proofs.«104552_j73632919323068_2_alg».proof.Proof.Gen.Kernel.Skeleton
import proofs.«104552_j73632919323068_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- "This is the first key tile": the body's first branch condition, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile": the body's second branch condition. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S1024x1024 .f32 := (Memref.whole cc1_stg3_0 : Memref sig .tc .vmem S1024x1024 .f32).view
/-- Each window's current staging memref at point `t`, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch operands (running maximum, denominator, numerator): whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

end Cert.Kernel.Hand

end
-- ==== Proof.Kernel.FlashRunA.lean ====
/-
  The attention kernel's body run whole in one of its three control cases (case A: the first key tile of a query tile): on whole memrefs, the
  three input blocks at given contents, the scratch at anything, the body runs to a continuation holding the inputs as they
  were and each scratch buffer (the idle output block untouched) with the pieces the body stored, which the run finds.
-/
import proofs.«104552_j73632919323068_2_alg».proof.Proof.Kernel.FlashKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.Kernel.FlashRunB.lean ====
/-
  The attention kernel's body run whole in one of its three control cases (case B: a middle key tile): on whole memrefs, the
  three input blocks at given contents, the scratch at the contents the point before left, the body runs to a continuation holding the inputs as they
  were and each scratch buffer (the idle output block untouched) with the pieces the body stored, which the run finds.
-/
import proofs.«104552_j73632919323068_2_alg».proof.Proof.Kernel.FlashRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.Kernel.FlashRunC.lean ====
/-
  The attention kernel's body run whole in one of its three control cases (case C: the last key tile): on whole memrefs, the
  three input blocks at given contents, the scratch at the contents the point before left, the body runs to a continuation holding the inputs as they
  were and each scratch buffer (and the output block) with the pieces the body stored, which the run finds.
-/
import proofs.«104552_j73632919323068_2_alg».proof.Proof.Kernel.FlashRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.Kernel.FlashFrame.lean ====
/-
  The attention region point by point: what the output block and the three scratch buffers hold after the body at each
  grid point (by recursion on the point: the first key tile resets, a later one updates what the point before left, the
  last one also stores the output block), the region's invariant (the scratch at those contents), the pipeline's proof
  data, and the obligation the pipeline asks of the body at every point.
-/
import proofs.«104552_j73632919323068_2_alg».proof.Proof.Kernel.FlashRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's stores into scratch 0 cover it. -/
theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

/-- What case A leaves in scratch 0. -/
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's stores into scratch 1 cover it. -/
theorem scover1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1.size (by sl_kernel_rfl) y

/-- What case A leaves in scratch 1. -/
def sout1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's stores into scratch 2 cover it. -/
theorem scover1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) (y : S1024x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S1024x1024.size (by sl_kernel_rfl) y

/-- What case A leaves in scratch 2. -/
def sout1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) : Vec F S1024x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case A leaves in the output block (nothing: a placeholder nothing consults, the window being idle there). -/
def out1_A_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) : Vec F S1024x1024 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case B's stores into scratch 0 cover it. -/
theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

/-- What case B leaves in scratch 0. -/
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's stores into scratch 1 cover it. -/
theorem scover1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1.size (by sl_kernel_rfl) y

/-- What case B leaves in scratch 1. -/
def sout1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's stores into scratch 2 cover it. -/
theorem scover1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1024x1024.size (by sl_kernel_rfl) y

/-- What case B leaves in scratch 2. -/
def sout1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- What case B leaves in the output block (nothing: a placeholder nothing consults, the window being idle there). -/
def out1_B_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1024 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case C's stores into scratch 0 cover it. -/
theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

/-- What case C leaves in scratch 0. -/
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's stores into scratch 1 cover it. -/
theorem scover1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

/-- What case C leaves in scratch 1. -/
def sout1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's stores into scratch 2 cover it. -/
theorem scover1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x1024.size (by sl_kernel_rfl) y

/-- What case C leaves in scratch 2. -/
def sout1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- Case C's store into the output block covers it. -/
theorem cover1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x1024.size (by sl_kernel_rfl) y

/-- What case C leaves in the output block. -/
def out1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- The four values a point leaves: the output block, then the three scratch buffers. -/
abbrev T4 (F : FTy → Type) [FloatOps F] : Type := Vec F S1024x1024 .f32 × Vec F S1024x1 .f32 × Vec F S1024x1 .f32 × Vec F S1024x1024 .f32

theorem nc1_of_first (t : Fin cfg1.N) (h0 : t.val % 8 = 0) : ¬cond1_1 (grid1.coords t) :=
  fun h => by have h7 := (hcond1_1 t).mp h; omega

/-- A first key tile. -/
def atA (c : Dev nD) (t : Fin cfg1.N) (h0 : t.val % 8 = 0) : T4 F :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (nc1_of_first t h0) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (nc1_of_first t h0) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (nc1_of_first t h0) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (nc1_of_first t h0) (iblk1 V c 0 t) (iblk1 V c 1 t) (iblk1 V c 2 t))

/-- A middle key tile, over what the point before left (`p`). -/
def atB (c : Dev nD) (t : Fin cfg1.N) (h0 : ¬t.val % 8 = 0) (h1 : ¬t.val % 8 = 7) (p : T4 F) : T4 F :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)

/-- A last key tile, over what the point before left (`p`). -/
def atC (c : Dev nD) (t : Fin cfg1.N) (h0 : ¬t.val % 8 = 0) (h1 : t.val % 8 = 7) (p : T4 F) : T4 F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

/-- What the output block and the scratch hold after the body at position `n`. -/
def outsAt1 (c : Dev nD) : (n : ℕ) → n < cfg1.N → T4 F
  | 0, hn => atA V c ⟨0, hn⟩ (Nat.zero_mod _)
  | n + 1, hn =>
    if h0 : (n + 1) % 8 = 0 then atA V c ⟨n + 1, hn⟩ h0
    else if h1 : (n + 1) % 8 = 7 then atC V c ⟨n + 1, hn⟩ h0 h1 (outsAt1 c n (Nat.lt_of_succ_lt hn))
    else atB V c ⟨n + 1, hn⟩ h0 h1 (outsAt1 c n (Nat.lt_of_succ_lt hn))

theorem outsAt1_A (c : Dev nD) (t : Fin cfg1.N) (h0 : t.val % 8 = 0) : outsAt1 V c t.val t.isLt = atA V c t h0 := by
  obtain ⟨n, hn⟩ := t
  cases n with
  | zero => exact rfl
  | succ n => exact dif_pos h0

theorem outsAt1_B (c : Dev nD) (t : Fin cfg1.N) (h0 : ¬t.val % 8 = 0) (h1 : ¬t.val % 8 = 7) :
    outsAt1 V c t.val t.isLt = atB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = atC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The class invariant with the three scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The region's invariant before position `n`: before the first point the class's; afterwards the three scratch
    buffers at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which case the point is in; the invariant hands the body the scratch at
    what the point before left (at anything before the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 8 = 0
  · rw [Dat.leavesExact_idle (dat1 V c) 3 t (idleAt1_3 t (nc1_of_first t h0)) (noFlush1_3 t (nc1_of_first t h0))]
    rw [outsAt1_A V c t h0]
    unfold atA sout1_A_0 sout1_A_1 sout1_A_2; (try dsimp only)
    by_cases hz : t.val = 0
    · rw [PhiS_castSucc V c t, PhiS_zero V c _ _ hz, PhiA1_eq]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (nc1_of_first t h0) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (nc1_of_first t h0) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold atC out1_C_3 sout1_C_0 sout1_C_1 sout1_C_2; (try dsimp only)
      rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold atB sout1_B_0 sout1_B_1 sout1_B_2; (try dsimp only)
      rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨R1, R2, R3, R4, R5, R6, R7, R8, R9, R10, R11, R12, R13, R14, HS0, HS1, HS2⟩, Hg⟩
  isplitl [R1 R2 R3 R4 R5 R6 R7 R8 R9 R10 R11 R12 R13 R14 HS0 HS1 HS2]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [HS0]; · iexists _; iexact HS0
  isplitl [HS1]; · iexists _; iexact HS1
  iexists _; iexact HS2

end Cert.Kernel.Hand

end
-- ==== Proof.Kernel.Run.lean ====
/-
  The whole program as three segments — the host operations that transpose the weights and reshape the biases, the
  projection region, the attention region — run in order from the launch: every weakly fair execution terminates, and
  every unscoped buffer ends at the contents the segments' fold names; in particular every argument array ends as
  launched, and the result array at what the attention region's pipeline wrote back.
-/
import proofs.«104552_j73632919323068_2_alg».proof.Proof.Kernel.Proj
import proofs.«104552_j73632919323068_2_alg».proof.Proof.Kernel.FlashFrame
import proofs.«104552_j73632919323068_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch, and after the host operations (the projection region's entry). -/
abbrev W0 : Dev nD → Valuation τ sig (Elt F) := fun c => Gen.V0 m c
abbrev W1 : Dev nD → Valuation τ sig (Elt F) := fun c => Gen.V1 m c
abbrev E1 : (c : Dev nD) → (b : Ref sig .tc) → Buf (Elt F) ((c : Thread nD τ).loc b) := fun c b => W1 m c b

/-- At the projection region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the attention region's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- The activations are an input window of the projection region: read, never written. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = Gen.V0 m c (Proc.devRef .tc main_arg0) := Gen.V1_of m c main_arg0 (by decide)
    _ = m ((c : Thread nD τ).loc main_arg0) := rfl
/-- Argument 1 is no window's array and no host operation's result. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = Gen.V0 m c (Proc.devRef .tc main_arg1) := Gen.V1_of m c main_arg1 (by decide)
    _ = m ((c : Thread nD τ).loc main_arg1) := rfl
/-- Argument 2 is no window's array and no host operation's result. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = Gen.V0 m c (Proc.devRef .tc main_arg2) := Gen.V1_of m c main_arg2 (by decide)
    _ = m ((c : Thread nD τ).loc main_arg2) := rfl
/-- Argument 3 is no window's array and no host operation's result. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = Gen.V0 m c (Proc.devRef .tc main_arg3) := Gen.V1_of m c main_arg3 (by decide)
    _ = m ((c : Thread nD τ).loc main_arg3) := rfl
/-- Argument 4 is no window's array and no host operation's result. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = Gen.V0 m c (Proc.devRef .tc main_arg4) := Gen.V1_of m c main_arg4 (by decide)
    _ = m ((c : Thread nD τ).loc main_arg4) := rfl
/-- Argument 5 is no window's array and no host operation's result. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = Gen.V0 m c (Proc.devRef .tc main_arg5) := Gen.V1_of m c main_arg5 (by decide)
    _ = m ((c : Thread nD τ).loc main_arg5) := rfl
/-- Argument 6 is no window's array and no host operation's result. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = Gen.V0 m c (Proc.devRef .tc main_arg6) := Gen.V1_of m c main_arg6 (by decide)
    _ = m ((c : Thread nD τ).loc main_arg6) := rfl
/-- The result array is the attention region's output window's array. -/
theorem W3_main_v10 (c : Dev nD) : W3 m c (Proc.devRef .tc main_v10) = (dat1 (E2 m) c).arrAt 3 cfg1.N :=
  W3_arr m c 3

/-- After the last point the attention region's invariant gives back the scoped rest and the generator register. -/
theorem hout1u (V : (c : Dev nD) → (b : Ref sig .tc) → Buf (Elt F) ((c : Thread nD τ).loc b)) (c : Dev nD) :
    (dat1 V c).Φ (Fin.last cfg1.N) ⊢ (iprop(Pipeline.scopedRest spec1 c ∗ ∃ r, prngReg c r) : sProp 𝕄) := by
  have h := hout1 V c; unfold Pipeline.ΦA at h; exact h

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- The projection region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`; the scratch
    rides inside the region's invariant and its contents are forgotten at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hh : (pdats m 1 c).Φ (Fin.last (Pipeline.pin (pcfgs (F := F)) adm 1).N) ⊢ (iprop(Pipeline.scopedRest spec1 c ∗ ∃ r, prngReg c r) : sProp 𝕄) := hout1u (E2 m) c
    iintro H
    ihave H2 := hh $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution terminates, and every final state holds each unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

/-- The run with the result named: the result array ends at what the attention region's pipeline wrote back. -/
theorem run_result : θ_run defs (onTc (τ := τ) (main (F := F))) ⟨m, fun _ => 0, ρ⟩ (fun r => ∀ c : Dev nD,
      r.2.mem ((c.tc : Thread nD τ).loc main_v10) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v10 (by decide))).trans (W3_main_v10 m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

end Cert.Kernel.Hand

end
-- ==== Proof.KernelIdeal.Proj.lean ====
/-
  The first kernel region: the three linear layers. At every grid point the body loads a 512-row block of the
  activations and the three transposed weight matrices and bias rows whole, and stores one 512-row block of each of the
  three products; it keeps nothing between points. Stated here: what each output block holds after the body as a function
  of the input blocks, the body's triple, and the obligation the pipeline asks of the body at every point.
-/
import proofs.«104552_j73632919323068_2_alg».proof.Proof.Gen.KernelIdeal.Launch
import proofs.«104552_j73632919323068_2_alg».proof.Proof.Gen.KernelIdeal.Skeleton
import proofs.«104552_j73632919323068_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S512x1024 := (Rect.unit (s := S512x1024) ![0, 0] S512x1024.size inb_S512x1024_S512x1024_0_0)
abbrev rW : Rect S1024x1024 := (Rect.unit (s := S1024x1024) ![0, 0] S1024x1024.size inb_S1024x1024_S1024x1024_0_0)
abbrev rB : Rect S1x1024 := (Rect.unit (s := S1x1024) ![0, 0] S1x1024.size inb_S1x1024_S1x1024_0_0)

/-- Output window 7's staging buffer after the body: its one store, over the loaded blocks. -/
def out0_7 (x0 : Vec F S512x1024 .f32) (xw : Vec F S1024x1024 .bf16) (xb : Vec F S1x1024 .f32) : Vec F S512x1024 .bf16 :=
  View.canon [⟨rX, k0_pay2 (View.ld x0 rX) (View.ld xw rW) (View.ld xb rB)⟩]

theorem cover0_7 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-- Output window 8's staging buffer after the body: its one store, over the loaded blocks. -/
def out0_8 (x0 : Vec F S512x1024 .f32) (xw : Vec F S1024x1024 .bf16) (xb : Vec F S1x1024 .f32) : Vec F S512x1024 .bf16 :=
  View.canon [⟨rX, k0_pay3 (View.ld x0 rX) (View.ld xw rW) (View.ld xb rB)⟩]

theorem cover0_8 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-- Output window 9's staging buffer after the body: its one store, over the loaded blocks. -/
def out0_9 (x0 : Vec F S512x1024 .f32) (xw : Vec F S1024x1024 .bf16) (xb : Vec F S1x1024 .f32) : Vec F S512x1024 .bf16 :=
  View.canon [⟨rX, k0_pay4 (View.ld x0 rX) (View.ld xw rW) (View.ld xb rB)⟩]

theorem cover0_9 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 4000000 in
/-- The body on whole staging memrefs, the inputs' at contents `x·` and the outputs' at anything, runs to the continuation
    holding the inputs' as they were and each output's at its named contents. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out0_7 x0 x1 x4)
            ∗ owns (c : Thread nD τ) arg9 fullShare (out0_8 x0 x2 x5)
            ∗ owns (c : Thread nD τ) arg10 fullShare (out0_9 x0 x3 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-- The proof data of the first pipeline on core `c`: the arrays as the region finds them; after the body each input's
    buffer at its block and each output's at its named contents; nothing kept between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.FlashKit.lean ====
/-
  The second kernel region: attention with a running softmax. The grid is 8 query tiles by 8 key tiles; a point loads
  one 1024-row block each of Q, K and V and keeps, between the points of one query tile, three scratch buffers: the
  running row maximum, the running denominator and the running numerator. At the first key tile the scratch is reset, at
  every key tile it is updated, and at the last key tile the quotient is stored into the output block (at the other
  points the output window is idle and not written back). Stated here: the two branch conditions in closed form over the
  grid, where the output window is idle, the memrefs the body is called with, and the input windows' blocks.
-/
import proofs.«104552_j73632919323068_2_alg».proof.Proof.Gen.KernelIdeal.Launch
import proofs.«104552_j73632919323068_2_alg».proof.Proof.Gen.KernelIdeal.Skeleton
import proofs.«104552_j73632919323068_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- "This is the first key tile": the body's first branch condition, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile": the body's second branch condition. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S1024x1024 .f32 := (Memref.whole cc1_stg3_0 : Memref sig .tc .vmem S1024x1024 .f32).view
/-- Each window's current staging memref at point `t`, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch operands (running maximum, denominator, numerator): whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

end Cert.KernelIdeal.Hand

end
-- ==== Proof.KernelIdeal.FlashRunA.lean ====
/-
  The attention kernel's body run whole in one of its three control cases (case A: the first key tile of a query tile): on whole memrefs, the
  three input blocks at given contents, the scratch at anything, the body runs to a continuation holding the inputs as they
  were and each scratch buffer (the idle output block untouched) with the pieces the body stored, which the run finds.
-/
import proofs.«104552_j73632919323068_2_alg».proof.Proof.KernelIdeal.FlashKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KernelIdeal.FlashRunB.lean ====
/-
  The attention kernel's body run whole in one of its three control cases (case B: a middle key tile): on whole memrefs, the
  three input blocks at given contents, the scratch at the contents the point before left, the body runs to a continuation holding the inputs as they
  were and each scratch buffer (the idle output block untouched) with the pieces the body stored, which the run finds.
-/
import proofs.«104552_j73632919323068_2_alg».proof.Proof.KernelIdeal.FlashRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KernelIdeal.FlashRunC.lean ====
/-
  The attention kernel's body run whole in one of its three control cases (case C: the last key tile): on whole memrefs, the
  three input blocks at given contents, the scratch at the contents the point before left, the body runs to a continuation holding the inputs as they
  were and each scratch buffer (and the output block) with the pieces the body stored, which the run finds.
-/
import proofs.«104552_j73632919323068_2_alg».proof.Proof.KernelIdeal.FlashRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KernelIdeal.FlashFrame.lean ====
/-
  The attention region point by point: what the output block and the three scratch buffers hold after the body at each
  grid point (by recursion on the point: the first key tile resets, a later one updates what the point before left, the
  last one also stores the output block), the region's invariant (the scratch at those contents), the pipeline's proof
  data, and the obligation the pipeline asks of the body at every point.
-/
import proofs.«104552_j73632919323068_2_alg».proof.Proof.KernelIdeal.FlashRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's stores into scratch 0 cover it. -/
theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

/-- What case A leaves in scratch 0. -/
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's stores into scratch 1 cover it. -/
theorem scover1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1.size (by sl_kernel_rfl) y

/-- What case A leaves in scratch 1. -/
def sout1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's stores into scratch 2 cover it. -/
theorem scover1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) (y : S1024x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S1024x1024.size (by sl_kernel_rfl) y

/-- What case A leaves in scratch 2. -/
def sout1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) : Vec F S1024x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case A leaves in the output block (nothing: a placeholder nothing consults, the window being idle there). -/
def out1_A_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) : Vec F S1024x1024 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case B's stores into scratch 0 cover it. -/
theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

/-- What case B leaves in scratch 0. -/
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's stores into scratch 1 cover it. -/
theorem scover1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1.size (by sl_kernel_rfl) y

/-- What case B leaves in scratch 1. -/
def sout1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's stores into scratch 2 cover it. -/
theorem scover1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1024x1024.size (by sl_kernel_rfl) y

/-- What case B leaves in scratch 2. -/
def sout1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- What case B leaves in the output block (nothing: a placeholder nothing consults, the window being idle there). -/
def out1_B_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1024 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case C's stores into scratch 0 cover it. -/
theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

/-- What case C leaves in scratch 0. -/
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's stores into scratch 1 cover it. -/
theorem scover1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

/-- What case C leaves in scratch 1. -/
def sout1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's stores into scratch 2 cover it. -/
theorem scover1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x1024.size (by sl_kernel_rfl) y

/-- What case C leaves in scratch 2. -/
def sout1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- Case C's store into the output block covers it. -/
theorem cover1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x1024.size (by sl_kernel_rfl) y

/-- What case C leaves in the output block. -/
def out1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) : Vec F S1024x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- The four values a point leaves: the output block, then the three scratch buffers. -/
abbrev T4 (F : FTy → Type) [FloatOps F] : Type := Vec F S1024x1024 .f32 × Vec F S1024x1 .f32 × Vec F S1024x1 .f32 × Vec F S1024x1024 .f32

theorem nc1_of_first (t : Fin cfg1.N) (h0 : t.val % 8 = 0) : ¬cond1_1 (grid1.coords t) :=
  fun h => by have h7 := (hcond1_1 t).mp h; omega

/-- A first key tile. -/
def atA (c : Dev nD) (t : Fin cfg1.N) (h0 : t.val % 8 = 0) : T4 F :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (nc1_of_first t h0) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (nc1_of_first t h0) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (nc1_of_first t h0) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (nc1_of_first t h0) (iblk1 V c 0 t) (iblk1 V c 1 t) (iblk1 V c 2 t))

/-- A middle key tile, over what the point before left (`p`). -/
def atB (c : Dev nD) (t : Fin cfg1.N) (h0 : ¬t.val % 8 = 0) (h1 : ¬t.val % 8 = 7) (p : T4 F) : T4 F :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)

/-- A last key tile, over what the point before left (`p`). -/
def atC (c : Dev nD) (t : Fin cfg1.N) (h0 : ¬t.val % 8 = 0) (h1 : t.val % 8 = 7) (p : T4 F) : T4 F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

/-- What the output block and the scratch hold after the body at position `n`. -/
def outsAt1 (c : Dev nD) : (n : ℕ) → n < cfg1.N → T4 F
  | 0, hn => atA V c ⟨0, hn⟩ (Nat.zero_mod _)
  | n + 1, hn =>
    if h0 : (n + 1) % 8 = 0 then atA V c ⟨n + 1, hn⟩ h0
    else if h1 : (n + 1) % 8 = 7 then atC V c ⟨n + 1, hn⟩ h0 h1 (outsAt1 c n (Nat.lt_of_succ_lt hn))
    else atB V c ⟨n + 1, hn⟩ h0 h1 (outsAt1 c n (Nat.lt_of_succ_lt hn))

theorem outsAt1_A (c : Dev nD) (t : Fin cfg1.N) (h0 : t.val % 8 = 0) : outsAt1 V c t.val t.isLt = atA V c t h0 := by
  obtain ⟨n, hn⟩ := t
  cases n with
  | zero => exact rfl
  | succ n => exact dif_pos h0

theorem outsAt1_B (c : Dev nD) (t : Fin cfg1.N) (h0 : ¬t.val % 8 = 0) (h1 : ¬t.val % 8 = 7) :
    outsAt1 V c t.val t.isLt = atB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = atC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The class invariant with the three scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The region's invariant before position `n`: before the first point the class's; afterwards the three scratch
    buffers at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which case the point is in; the invariant hands the body the scratch at
    what the point before left (at anything before the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 8 = 0
  · rw [Dat.leavesExact_idle (dat1 V c) 3 t (idleAt1_3 t (nc1_of_first t h0)) (noFlush1_3 t (nc1_of_first t h0))]
    rw [outsAt1_A V c t h0]
    unfold atA sout1_A_0 sout1_A_1 sout1_A_2; (try dsimp only)
    by_cases hz : t.val = 0
    · rw [PhiS_castSucc V c t, PhiS_zero V c _ _ hz, PhiA1_eq]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (nc1_of_first t h0) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (nc1_of_first t h0) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold atC out1_C_3 sout1_C_0 sout1_C_1 sout1_C_2; (try dsimp only)
      rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold atB sout1_B_0 sout1_B_1 sout1_B_2; (try dsimp only)
      rw [PhiS_castSucc V c t, PhiS_pos V c _ _ hz]
      iintro ⟨⟨⟨R1, R2, R3, R4, R5, R6, R7, R8, R9, R10, R11, R12, R13, R14, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R1 R2 R3 R4 R5 R6 R7 R8 R9 R10 R11 R12 R13 R14 HS0 HS1 HS2 Hg]
      · isplitl [R1 R2 R3 R4 R5 R6 R7 R8 R9 R10 R11 R12 R13 R14 HS0 HS1 HS2]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨R1, R2, R3, R4, R5, R6, R7, R8, R9, R10, R11, R12, R13, R14, HS0, HS1, HS2⟩, Hg⟩
  isplitl [R1 R2 R3 R4 R5 R6 R7 R8 R9 R10 R11 R12 R13 R14 HS0 HS1 HS2]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [HS0]; · iexists _; iexact HS0
  isplitl [HS1]; · iexists _; iexact HS1
  iexists _; iexact HS2

end Cert.KernelIdeal.Hand

end
-- ==== Proof.KernelIdeal.Run.lean ====
/-
  The whole program as three segments — the host operations that transpose the weights and reshape the biases, the
  projection region, the attention region — run in order from the launch: every weakly fair execution terminates, and
  every unscoped buffer ends at the contents the segments' fold names; in particular every argument array ends as
  launched, and the result array at what the attention region's pipeline wrote back.
-/
import proofs.«104552_j73632919323068_2_alg».proof.Proof.KernelIdeal.Proj
import proofs.«104552_j73632919323068_2_alg».proof.Proof.KernelIdeal.FlashFrame
import proofs.«104552_j73632919323068_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch, and after the host operations (the projection region's entry). -/
abbrev W0 : Dev nD → Valuation τ sig (Elt F) := fun c => Gen.V0 m c
abbrev W1 : Dev nD → Valuation τ sig (Elt F) := fun c => Gen.V1 m c
abbrev E1 : (c : Dev nD) → (b : Ref sig .tc) → Buf (Elt F) ((c : Thread nD τ).loc b) := fun c b => W1 m c b

/-- At the projection region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the attention region's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- The activations are an input window of the projection region: read, never written. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = Gen.V0 m c (Proc.devRef .tc main_arg0) := Gen.V1_of m c main_arg0 (by decide)
    _ = m ((c : Thread nD τ).loc main_arg0) := rfl
/-- Argument 1 is no window's array and no host operation's result. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = Gen.V0 m c (Proc.devRef .tc main_arg1) := Gen.V1_of m c main_arg1 (by decide)
    _ = m ((c : Thread nD τ).loc main_arg1) := rfl
/-- Argument 2 is no window's array and no host operation's result. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = Gen.V0 m c (Proc.devRef .tc main_arg2) := Gen.V1_of m c main_arg2 (by decide)
    _ = m ((c : Thread nD τ).loc main_arg2) := rfl
/-- Argument 3 is no window's array and no host operation's result. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = Gen.V0 m c (Proc.devRef .tc main_arg3) := Gen.V1_of m c main_arg3 (by decide)
    _ = m ((c : Thread nD τ).loc main_arg3) := rfl
/-- Argument 4 is no window's array and no host operation's result. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = Gen.V0 m c (Proc.devRef .tc main_arg4) := Gen.V1_of m c main_arg4 (by decide)
    _ = m ((c : Thread nD τ).loc main_arg4) := rfl
/-- Argument 5 is no window's array and no host operation's result. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = Gen.V0 m c (Proc.devRef .tc main_arg5) := Gen.V1_of m c main_arg5 (by decide)
    _ = m ((c : Thread nD τ).loc main_arg5) := rfl
/-- Argument 6 is no window's array and no host operation's result. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = Gen.V0 m c (Proc.devRef .tc main_arg6) := Gen.V1_of m c main_arg6 (by decide)
    _ = m ((c : Thread nD τ).loc main_arg6) := rfl
/-- The result array is the attention region's output window's array. -/
theorem W3_main_v10 (c : Dev nD) : W3 m c (Proc.devRef .tc main_v10) = (dat1 (E2 m) c).arrAt 3 cfg1.N :=
  W3_arr m c 3

/-- After the last point the attention region's invariant gives back the scoped rest and the generator register. -/
theorem hout1u (V : (c : Dev nD) → (b : Ref sig .tc) → Buf (Elt F) ((c : Thread nD τ).loc b)) (c : Dev nD) :
    (dat1 V c).Φ (Fin.last cfg1.N) ⊢ (iprop(Pipeline.scopedRest spec1 c ∗ ∃ r, prngReg c r) : sProp 𝕄) := by
  have h := hout1 V c; unfold Pipeline.ΦA at h; exact h

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- The projection region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`; the scratch
    rides inside the region's invariant and its contents are forgotten at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hh : (pdats m 1 c).Φ (Fin.last (Pipeline.pin (pcfgs (F := F)) adm 1).N) ⊢ (iprop(Pipeline.scopedRest spec1 c ∗ ∃ r, prngReg c r) : sProp 𝕄) := hout1u (E2 m) c
    iintro H
    ihave H2 := hh $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution terminates, and every final state holds each unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

/-- The run with the result named: the result array ends at what the attention region's pipeline wrote back. -/
theorem run_result : θ_run defs (onTc (τ := τ) (main (F := F))) ⟨m, fun _ => 0, ρ⟩ (fun r => ∀ c : Dev nD,
      r.2.mem ((c.tc : Thread nD τ).loc main_v10) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v10 (by decide))).trans (W3_main_v10 m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

end Cert.KernelIdeal.Hand

end
-- ==== Proof.KernelIdeal.FlashPieces.lean ====
/-
  What the attention kernel's body leaves in each buffer, case by case, as the skeleton's arithmetic applied to the loaded
  blocks: a first key tile computes from the reset values (−∞, 0, 0) it has just stored and read back; a later key tile
  from what the point before left; the last key tile also stores the quotient of the new numerator by the new denominator.
-/
import proofs.«104552_j73632919323068_2_alg».proof.Proof.KernelIdeal.FlashFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) :
    sout1_A_0 c i arg2 harg2 arg3 harg3 arg4 harg4 arg5 harg5 arg6 harg6 arg7 harg7 arg8 harg8 hc0 hc1 x0 x1 x2 = k1_pay2 (k1_pay8 x0 x1 k1_pay4) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  simp only [View.canon_cons_unit_zero (S := S1024x1) hz2, View.canon_cons_unit_zero (S := S1024x1024) hz2, View.canon_unit_zero (S := S1024x1) hz2, View.canon_unit_zero (S := S1024x1024) hz2,
    View.readCov_unit_zero (S := S1024x1) _ hz2, View.readCov_unit_zero (S := S1024x1024) _ hz2, View.readAt_eq_ld,
    harg2.read_unread, harg3.read_unread, harg4.read_unread, harg5.read_unread, harg6.read_unread, harg7.read_unread, harg8.read_unread,
    View.ld_unit_zero (S := S1024x1024) hz2, View.ld_unit_zero (S := S1024x1) hz2]

theorem sout_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) :
    sout1_A_1 c i arg2 harg2 arg3 harg3 arg4 harg4 arg5 harg5 arg6 harg6 arg7 harg7 arg8 harg8 hc0 hc1 x0 x1 x2 = k1_pay11 x0 x1 k1_pay4 k1_pay4 k1_pay5 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  simp only [View.canon_cons_unit_zero (S := S1024x1) hz2, View.canon_cons_unit_zero (S := S1024x1024) hz2, View.canon_unit_zero (S := S1024x1) hz2, View.canon_unit_zero (S := S1024x1024) hz2,
    View.readCov_unit_zero (S := S1024x1) _ hz2, View.readCov_unit_zero (S := S1024x1024) _ hz2, View.readAt_eq_ld,
    harg2.read_unread, harg3.read_unread, harg4.read_unread, harg5.read_unread, harg6.read_unread, harg7.read_unread, harg8.read_unread,
    View.ld_unit_zero (S := S1024x1024) hz2, View.ld_unit_zero (S := S1024x1) hz2]

theorem sout_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x1024 .bf16) :
    sout1_A_2 c i arg2 harg2 arg3 harg3 arg4 harg4 arg5 harg5 arg6 harg6 arg7 harg7 arg8 harg8 hc0 hc1 x0 x1 x2 = k1_pay1 (k1_pay12 x0 x1 k1_pay4 k1_pay4 k1_pay6 x2) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  simp only [View.canon_cons_unit_zero (S := S1024x1) hz2, View.canon_cons_unit_zero (S := S1024x1024) hz2, View.canon_unit_zero (S := S1024x1) hz2, View.canon_unit_zero (S := S1024x1024) hz2,
    View.readCov_unit_zero (S := S1024x1) _ hz2, View.readCov_unit_zero (S := S1024x1024) _ hz2, View.readAt_eq_ld,
    harg2.read_unread, harg3.read_unread, harg4.read_unread, harg5.read_unread, harg6.read_unread, harg7.read_unread, harg8.read_unread,
    View.ld_unit_zero (S := S1024x1024) hz2, View.ld_unit_zero (S := S1024x1) hz2]

theorem sout_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    sout1_B_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  simp only [View.canon_cons_unit_zero (S := S1024x1) hz2, View.canon_cons_unit_zero (S := S1024x1024) hz2, View.canon_unit_zero (S := S1024x1) hz2, View.canon_unit_zero (S := S1024x1024) hz2,
    View.readCov_unit_zero (S := S1024x1) _ hz2, View.readCov_unit_zero (S := S1024x1024) _ hz2, View.readAt_eq_ld,
    harg2.read_unread, harg3.read_unread, harg4.read_unread, harg5.read_unread, harg6.read_unread, harg7.read_unread, harg8.read_unread,
    View.ld_unit_zero (S := S1024x1024) hz2, View.ld_unit_zero (S := S1024x1) hz2]

theorem sout_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    sout1_B_1 c i arg2 harg2 arg3 harg3 arg4 harg4 arg5 harg5 arg6 harg6 arg7 harg7 arg8 harg8 hc0 hc1 x0 x1 x2 xs0 xs1 xs2 = k1_pay11 x0 x1 xs0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  simp only [View.canon_cons_unit_zero (S := S1024x1) hz2, View.canon_cons_unit_zero (S := S1024x1024) hz2, View.canon_unit_zero (S := S1024x1) hz2, View.canon_unit_zero (S := S1024x1024) hz2,
    View.readCov_unit_zero (S := S1024x1) _ hz2, View.readCov_unit_zero (S := S1024x1024) _ hz2, View.readAt_eq_ld,
    harg2.read_unread, harg3.read_unread, harg4.read_unread, harg5.read_unread, harg6.read_unread, harg7.read_unread, harg8.read_unread,
    View.ld_unit_zero (S := S1024x1024) hz2, View.ld_unit_zero (S := S1024x1) hz2]

theorem sout_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    sout1_B_2 c i arg2 harg2 arg3 harg3 arg4 harg4 arg5 harg5 arg6 harg6 arg7 harg7 arg8 harg8 hc0 hc1 x0 x1 x2 xs0 xs1 xs2 = k1_pay1 (k1_pay12 x0 x1 xs0 xs0 xs2 x2) := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  simp only [View.canon_cons_unit_zero (S := S1024x1) hz2, View.canon_cons_unit_zero (S := S1024x1024) hz2, View.canon_unit_zero (S := S1024x1) hz2, View.canon_unit_zero (S := S1024x1024) hz2,
    View.readCov_unit_zero (S := S1024x1) _ hz2, View.readCov_unit_zero (S := S1024x1024) _ hz2, View.readAt_eq_ld,
    harg2.read_unread, harg3.read_unread, harg4.read_unread, harg5.read_unread, harg6.read_unread, harg7.read_unread, harg8.read_unread,
    View.ld_unit_zero (S := S1024x1024) hz2, View.ld_unit_zero (S := S1024x1) hz2]

theorem sout_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    sout1_C_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  simp only [View.canon_cons_unit_zero (S := S1024x1) hz2, View.canon_cons_unit_zero (S := S1024x1024) hz2, View.canon_unit_zero (S := S1024x1) hz2, View.canon_unit_zero (S := S1024x1024) hz2,
    View.readCov_unit_zero (S := S1024x1) _ hz2, View.readCov_unit_zero (S := S1024x1024) _ hz2, View.readAt_eq_ld,
    harg2.read_unread, harg3.read_unread, harg4.read_unread, harg5.read_unread, harg6.read_unread, harg7.read_unread, harg8.read_unread,
    View.ld_unit_zero (S := S1024x1024) hz2, View.ld_unit_zero (S := S1024x1) hz2]

theorem sout_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    sout1_C_1 c i arg2 harg2 arg3 harg3 arg4 harg4 arg5 harg5 arg6 harg6 arg7 harg7 arg8 harg8 hc0 hc1 x0 x1 x2 xs0 xs1 xs2 = k1_pay11 x0 x1 xs0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  simp only [View.canon_cons_unit_zero (S := S1024x1) hz2, View.canon_cons_unit_zero (S := S1024x1024) hz2, View.canon_unit_zero (S := S1024x1) hz2, View.canon_unit_zero (S := S1024x1024) hz2,
    View.readCov_unit_zero (S := S1024x1) _ hz2, View.readCov_unit_zero (S := S1024x1024) _ hz2, View.readAt_eq_ld,
    harg2.read_unread, harg3.read_unread, harg4.read_unread, harg5.read_unread, harg6.read_unread, harg7.read_unread, harg8.read_unread,
    View.ld_unit_zero (S := S1024x1024) hz2, View.ld_unit_zero (S := S1024x1) hz2]

theorem sout_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    sout1_C_2 c i arg2 harg2 arg3 harg3 arg4 harg4 arg5 harg5 arg6 harg6 arg7 harg7 arg8 harg8 hc0 hc1 x0 x1 x2 xs0 xs1 xs2 = k1_pay1 (k1_pay12 x0 x1 xs0 xs0 xs2 x2) := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  simp only [View.canon_cons_unit_zero (S := S1024x1) hz2, View.canon_cons_unit_zero (S := S1024x1024) hz2, View.canon_unit_zero (S := S1024x1) hz2, View.canon_unit_zero (S := S1024x1024) hz2,
    View.readCov_unit_zero (S := S1024x1) _ hz2, View.readCov_unit_zero (S := S1024x1024) _ hz2, View.readAt_eq_ld,
    harg2.read_unread, harg3.read_unread, harg4.read_unread, harg5.read_unread, harg6.read_unread, harg7.read_unread, harg8.read_unread,
    View.ld_unit_zero (S := S1024x1024) hz2, View.ld_unit_zero (S := S1024x1) hz2]

theorem out_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x1024 .bf16) (xs0 : Vec F S1024x1 .f32) (xs1 : Vec F S1024x1 .f32) (xs2 : Vec F S1024x1024 .f32) :
    out1_C_3 c i arg2 harg2 arg3 harg3 arg4 harg4 arg5 harg5 arg6 harg6 arg7 harg7 arg8 harg8 hc0 hc1 x0 x1 x2 xs0 xs1 xs2 = k1_pay3 (k1_pay1 (k1_pay12 x0 x1 xs0 xs0 xs2 x2)) (k1_pay11 x0 x1 xs0 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  simp only [View.canon_cons_unit_zero (S := S1024x1) hz2, View.canon_cons_unit_zero (S := S1024x1024) hz2, View.canon_unit_zero (S := S1024x1) hz2, View.canon_unit_zero (S := S1024x1024) hz2,
    View.readCov_unit_zero (S := S1024x1) _ hz2, View.readCov_unit_zero (S := S1024x1024) _ hz2, View.readAt_eq_ld,
    harg2.read_unread, harg3.read_unread, harg4.read_unread, harg5.read_unread, harg6.read_unread, harg7.read_unread, harg8.read_unread,
    View.ld_unit_zero (S := S1024x1024) hz2, View.ld_unit_zero (S := S1024x1) hz2]

end Cert.KernelIdeal.Hand

end
-- ==== Proof.Spec.lean ====
/-
  The function both programs compute, stated once over the extended reals.

  Three linear layers  Q = x·Wqᵀ + bq,  K = x·Wkᵀ + bk,  V = x·Wvᵀ + bv  (row `r` of `x` against row `o` of the
  weight, plus the bias), the scores  S r j = ∑ c, Q r c · K j c  of query row `r` against key row `j`, and the
  row-wise softmax of the scores applied to `V`:  with  M r = sup_j S r j  and  L r = ∑ j, exp (S r j - M r),
  the result at `(r, d)` is  ∑ j, (exp (S r j - M r) / L r) · V j d.
-/
import Idealize.ShloMosaic.PureOps.Ideal
import Idealize.ShloMosaic.Lib.ValueIdx

noncomputable section

open scoped BigOperators

namespace Cert.Attn

open Idealize.ShloMosaic Idealize.ShloMosaic.ValueIdx

/-- A matrix of extended reals over a literal rank-2 shape. -/
abbrev Mat (a b : Nat) : Type := (⟨2, ![a, b]⟩ : Shape).Idx → EReal
/-- A vector of extended reals over a literal rank-1 shape. -/
abbrev Vc (a : Nat) : Type := (⟨1, ![a]⟩ : Shape).Idx → EReal

/-- A linear layer at `(r, o)`: row `r` of `x` against row `o` of `w`, plus the bias at `o`. -/
def proj (x : Mat 8192 1024) (w : Mat 1024 1024) (b : Vc 1024) (r : Fin 8192) (o : Fin 1024) : EReal :=
  (∑ c : Fin 1024, x (ix2 r c) * w (ix2 o c)) + b (ix1 o)

/-- The score of query row `r` against key row `j`. -/
def score (Q K : Fin 8192 → Fin 1024 → EReal) (r j : Fin 8192) : EReal :=
  ∑ c : Fin 1024, Q r c * K j c

/-- The largest score of row `r`. -/
def rowMax (Q K : Fin 8192 → Fin 1024 → EReal) (r : Fin 8192) : EReal :=
  Finset.univ.sup fun j : Fin 8192 => score Q K r j

/-- The softmax denominator of row `r`. -/
def rowSum (Q K : Fin 8192 → Fin 1024 → EReal) (r : Fin 8192) : EReal :=
  ∑ j : Fin 8192, Ideal.exp (score Q K r j - rowMax Q K r)

/-- Softmax attention at `(r, d)`. -/
def attn (Q K V : Fin 8192 → Fin 1024 → EReal) (r : Fin 8192) (d : Fin 1024) : EReal :=
  ∑ j : Fin 8192, Ideal.div (Ideal.exp (score Q K r j - rowMax Q K r)) (rowSum Q K r) * V j d

/-- The result array as one function of the seven argument arrays, index by index. -/
def out (x : Mat 8192 1024) (wk : Mat 1024 1024) (bk : Vc 1024) (wq : Mat 1024 1024) (bq : Vc 1024)
    (wv : Mat 1024 1024) (bv : Vc 1024) : Mat 8192 1024 :=
  fun i => attn (proj x wq bq) (proj x wk bk) (proj x wv bv) (i 0) (i 1)

end Cert.Attn

end
-- ==== Proof.OnlineSoftmax.lean ====
/-
  The streaming form of softmax-weighted averaging.

  A row of scores is read tile by tile.  The running state is a triple: the largest score seen so far, the sum of
  exp (score - that maximum) over the scores seen so far, and the same sum weighted by the values.  When a new
  tile arrives the maximum may grow from m to m'; both sums are rescaled by exp (m - m') and the tile's own terms
  are added.  Since  exp (s - m) · exp (m - m') = exp (s - m'),  after k tiles the state is exactly what one
  pass over the first k tiles with their true maximum would give, so the final quotient is the softmax average.
-/
import proofs.«104552_j73632919323068_2_alg».proof.Proof.Spec
import Mathlib.Algebra.BigOperators.Fin
import Mathlib.Logic.Equiv.Fin.Basic

noncomputable section

open scoped BigOperators

namespace Cert.Attn

open Idealize.ShloMosaic Idealize.ShloMosaic.ValueIdx

/-! ### Coercion of finite sums and of finite suprema -/

/-- The coercion ℝ → EReal commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The supremum of finitely many reals, over a nonempty index set, is one of them: a real. -/
theorem exists_coe_eq_sup {ι : Type*} (t : Finset ι) (ht : t.Nonempty) (f : ι → ℝ) :
    ∃ m : ℝ, (m : EReal) = t.sup (fun i => (f i : EReal)) ∧ (∀ i ∈ t, f i ≤ m) := by
  obtain ⟨i, hi, h⟩ := Finset.exists_mem_eq_sup t ht (fun i => (f i : EReal))
  refine ⟨f i, h.symm, fun j hj => ?_⟩
  have : (f j : EReal) ≤ t.sup (fun i => (f i : EReal)) := Finset.le_sup (f := fun i => (f i : EReal)) hj
  rw [h] at this
  exact_mod_cast this

/-! ### The streaming step -/

variable {J : Type*} [Fintype J] [Nonempty J]

/-- One streaming step on (running maximum, running denominator, running numerator) with a tile's scores sk
    and values vk. -/
def step (sk vk : J → EReal) (x : EReal × EReal × EReal) : EReal × EReal × EReal :=
  let m' := max x.1 (Finset.univ.sup sk)
  let α := Ideal.exp (x.1 - m')
  (m', α * x.2.1 + ∑ j, Ideal.exp (sk j - m'), α * x.2.2 + ∑ j, Ideal.exp (sk j - m') * vk j)

/-- The state after the first k tiles. -/
def stream (s v : ℕ → J → EReal) : ℕ → EReal × EReal × EReal
  | 0 => (⊥, 0, 0)
  | k + 1 => step (s k) (v k) (stream s v k)

/-- The tile sums at a real reference point m, as reals. -/
def den (s : ℕ → J → ℝ) (k : ℕ) (m : ℝ) : ℝ := ∑ i ∈ Finset.range k, ∑ j, Real.exp (s i j - m)
/-- The weighted tile sums at a real reference point m, as reals. -/
def num (s v : ℕ → J → ℝ) (k : ℕ) (m : ℝ) : ℝ := ∑ i ∈ Finset.range k, ∑ j, Real.exp (s i j - m) * v i j

/-- Moving the reference point from m to m' rescales the denominator by exp (m - m'). -/
theorem den_shift (s : ℕ → J → ℝ) (k : ℕ) (m m' : ℝ) :
    Real.exp (m - m') * den s k m = den s k m' := by
  unfold den
  rw [Finset.mul_sum]
  refine Finset.sum_congr rfl fun i _ => ?_
  rw [Finset.mul_sum]
  refine Finset.sum_congr rfl fun j _ => ?_
  rw [← Real.exp_add]; congr 1; ring

/-- Moving the reference point from m to m' rescales the numerator by exp (m - m'). -/
theorem num_shift (s v : ℕ → J → ℝ) (k : ℕ) (m m' : ℝ) :
    Real.exp (m - m') * num s v k m = num s v k m' := by
  unfold num
  rw [Finset.mul_sum]
  refine Finset.sum_congr rfl fun i _ => ?_
  rw [Finset.mul_sum]
  refine Finset.sum_congr rfl fun j _ => ?_
  rw [← mul_assoc, ← Real.exp_add]; congr 2; ring

/-- A tile's denominator terms at a real reference point are real. -/
theorem tile_den_coe (sk : J → ℝ) (m : ℝ) :
    (∑ j, Ideal.exp ((sk j : EReal) - (m : EReal))) = ((∑ j, Real.exp (sk j - m) : ℝ) : EReal) := by
  rw [coe_sum]
  refine Finset.sum_congr rfl fun j _ => ?_
  rw [← EReal.coe_sub, Ideal.exp_coe]

/-- A tile's numerator terms at a real reference point are real. -/
theorem tile_num_coe (sk vk : J → ℝ) (m : ℝ) :
    (∑ j, Ideal.exp ((sk j : EReal) - (m : EReal)) * (vk j : EReal))
      = ((∑ j, Real.exp (sk j - m) * vk j : ℝ) : EReal) := by
  rw [coe_sum]
  refine Finset.sum_congr rfl fun j _ => ?_
  rw [← EReal.coe_sub, Ideal.exp_coe, EReal.coe_mul]

/-! ### One step on a real state -/

/-- The first step: from the empty state (⊥, 0, 0) one tile gives the tile's own maximum t and its sums at t. -/
theorem step_bot (sk vk : J → ℝ) :
    ∃ t : ℝ, (t : EReal) = Finset.univ.sup (fun j => (sk j : EReal)) ∧
      step (fun j => (sk j : EReal)) (fun j => (vk j : EReal)) (⊥, 0, 0)
        = ((t : EReal), ((∑ j, Real.exp (sk j - t) : ℝ) : EReal),
            ((∑ j, Real.exp (sk j - t) * vk j : ℝ) : EReal)) := by
  obtain ⟨t, ht, -⟩ := exists_coe_eq_sup Finset.univ Finset.univ_nonempty sk
  refine ⟨t, ht, ?_⟩
  unfold step
  simp only []
  rw [← ht, max_eq_right (bot_le : (⊥ : EReal) ≤ (t : EReal)), EReal.bot_sub, Ideal.exp_bot, zero_mul, zero_add,
    zero_add, tile_den_coe, tile_num_coe]

/-- A later step: from a real state (m, A, B) one tile with maximum t gives the maximum max m t, and both sums
    rescaled by exp (m - max m t) plus the tile's terms at max m t. -/
theorem step_coe (sk vk : J → ℝ) (m A B : ℝ) :
    ∃ t : ℝ, (t : EReal) = Finset.univ.sup (fun j => (sk j : EReal)) ∧
      step (fun j => (sk j : EReal)) (fun j => (vk j : EReal)) ((m : EReal), (A : EReal), (B : EReal))
        = (((max m t : ℝ) : EReal),
            ((Real.exp (m - max m t) * A + ∑ j, Real.exp (sk j - max m t) : ℝ) : EReal),
            ((Real.exp (m - max m t) * B + ∑ j, Real.exp (sk j - max m t) * vk j : ℝ) : EReal)) := by
  obtain ⟨t, ht, -⟩ := exists_coe_eq_sup Finset.univ Finset.univ_nonempty sk
  refine ⟨t, ht, ?_⟩
  unfold step
  simp only []
  rw [← ht, ← EReal.coe_strictMono.monotone.map_max, ← EReal.coe_sub, Ideal.exp_coe, ← EReal.coe_mul,
    ← EReal.coe_mul, tile_den_coe, tile_num_coe, ← EReal.coe_add, ← EReal.coe_add]

/-! ### The state after k ≥ 1 tiles -/

/-- After k + 1 tiles of real scores and values the state is real: the maximum m of those tiles and the two
    sums over those tiles at m. -/
theorem stream_succ (s v : ℕ → J → ℝ) (k : ℕ) :
    ∃ m : ℝ,
      stream (fun i j => (s i j : EReal)) (fun i j => (v i j : EReal)) (k + 1)
          = ((m : EReal), ((den s (k + 1) m : ℝ) : EReal), ((num s v (k + 1) m : ℝ) : EReal))
        ∧ (m : EReal) = (Finset.range (k + 1)).sup (fun i => Finset.univ.sup (fun j => (s i j : EReal))) := by
  induction k with
  | zero =>
    obtain ⟨t, ht, hst⟩ := step_bot (s 0) (v 0)
    refine ⟨t, ?_, ?_⟩
    · show step _ _ (⊥, 0, 0) = _
      rw [hst]
      simp [den, num]
    · rw [ht]; simp
  | succ k ih =>
    obtain ⟨m, hst, hm⟩ := ih
    obtain ⟨t, ht, hstep⟩ := step_coe (s (k + 1)) (v (k + 1)) m (den s (k + 1) m) (num s v (k + 1) m)
    refine ⟨max m t, ?_, ?_⟩
    · show step _ _ (stream _ _ (k + 1)) = _
      rw [hst, hstep, den_shift, num_shift]
      simp only [den, num, Finset.sum_range_succ]
    · rw [Finset.range_add_one (n := k + 1), Finset.sup_insert, ← hm, ← ht, EReal.coe_strictMono.monotone.map_max, max_comm]

/-! ### The streamed quotient is the softmax average -/

/-- A sum over (tile, position) pairs is the sum over tiles of the sums over positions. -/
theorem sum_fin_prod (n : ℕ) (f : ℕ → J → EReal) :
    ∑ p : Fin n × J, f p.1 p.2 = ∑ i ∈ Finset.range n, ∑ j, f i j := by
  rw [Fintype.sum_prod_type]
  exact Fin.sum_univ_eq_sum_range (fun i => ∑ j, f i j) n

/-- The supremum over (tile, position) pairs is the supremum over tiles of the suprema over positions. -/
theorem sup_fin_prod (n : ℕ) (f : ℕ → J → EReal) :
    Finset.univ.sup (fun p : Fin n × J => f p.1 p.2)
      = (Finset.range n).sup (fun i => Finset.univ.sup (fun j => f i j)) := by
  apply le_antisymm
  · refine Finset.sup_le fun p _ => ?_
    exact le_trans (Finset.le_sup (f := fun j => f p.1 j) (Finset.mem_univ p.2))
      (Finset.le_sup (f := fun i => Finset.univ.sup (fun j => f i j)) (Finset.mem_range.2 p.1.2))
  · refine Finset.sup_le fun i hi => Finset.sup_le fun j _ => ?_
    exact Finset.le_sup (f := fun p : Fin n × J => f p.1 p.2)
      (Finset.mem_univ ((⟨i, Finset.mem_range.1 hi⟩ : Fin n), j))

/-- The denominator at any reference point is positive once there is a tile. -/
theorem den_pos (s : ℕ → J → ℝ) (k : ℕ) (m : ℝ) : 0 < den s (k + 1) m :=
  Finset.sum_pos (fun _ _ => Finset.sum_pos (fun _ _ => Real.exp_pos _) Finset.univ_nonempty)
    Finset.nonempty_range_add_one

/-- Streaming n ≥ 1 tiles of real scores s and real values v, then dividing the numerator by the denominator,
    gives the softmax average of the values over all n tiles at once: with M the largest score and
    L = ∑ exp (score - M), the result is ∑ (exp (score - M) / L) · value. -/
theorem stream_eq_softmax (n : ℕ) (hn : 0 < n) (s v : ℕ → J → ℝ) :
    Ideal.div (stream (fun k j => (s k j : EReal)) (fun k j => (v k j : EReal)) n).2.2
        (stream (fun k j => (s k j : EReal)) (fun k j => (v k j : EReal)) n).2.1
      = ∑ p : Fin n × J,
          Ideal.div
            (Ideal.exp ((s p.1 p.2 : EReal) - Finset.univ.sup (fun q : Fin n × J => (s q.1 q.2 : EReal))))
            (∑ r : Fin n × J,
              Ideal.exp ((s r.1 r.2 : EReal) - Finset.univ.sup (fun q : Fin n × J => (s q.1 q.2 : EReal))))
          * (v p.1 p.2 : EReal) := by
  obtain ⟨k, rfl⟩ : ∃ k, n = k + 1 := ⟨n - 1, by omega⟩
  obtain ⟨m, hst, hm⟩ := stream_succ s v k
  have hM : Finset.univ.sup (fun q : Fin (k + 1) × J => (s q.1 q.2 : EReal)) = (m : EReal) := by
    rw [hm]; exact sup_fin_prod (k + 1) (fun i j => (s i j : EReal))
  have hL : (∑ r : Fin (k + 1) × J, Ideal.exp ((s r.1 r.2 : EReal) - (m : EReal)))
      = ((den s (k + 1) m : ℝ) : EReal) := by
    calc (∑ r : Fin (k + 1) × J, Ideal.exp ((s r.1 r.2 : EReal) - (m : EReal)))
        = ∑ i ∈ Finset.range (k + 1), ∑ j, Ideal.exp ((s i j : EReal) - (m : EReal)) :=
          sum_fin_prod (k + 1) (fun i j => Ideal.exp ((s i j : EReal) - (m : EReal)))
      _ = ∑ i ∈ Finset.range (k + 1), ((∑ j, Real.exp (s i j - m) : ℝ) : EReal) :=
          Finset.sum_congr rfl fun i _ => tile_den_coe (s i) m
      _ = ((den s (k + 1) m : ℝ) : EReal) := (coe_sum _ _).symm
  have hD : den s (k + 1) m ≠ 0 := (den_pos s k m).ne'
  rw [hst, hM, hL]
  simp only []
  rw [Ideal.div_coe hD]
  calc ((num s v (k + 1) m : ℝ) : EReal) * ((1 / den s (k + 1) m : ℝ) : EReal)
      = ((∑ i ∈ Finset.range (k + 1), ∑ j, Real.exp (s i j - m) * (1 / den s (k + 1) m) * v i j : ℝ) : EReal) := by
        rw [← EReal.coe_mul]
        congr 1
        unfold num
        rw [Finset.sum_mul]
        refine Finset.sum_congr rfl fun i _ => ?_
        rw [Finset.sum_mul]
        refine Finset.sum_congr rfl fun j _ => ?_
        ring
    _ = ∑ i ∈ Finset.range (k + 1), ∑ j,
          Ideal.div (Ideal.exp ((s i j : EReal) - (m : EReal))) ((den s (k + 1) m : ℝ) : EReal) * (v i j : EReal) := by
        rw [coe_sum]
        refine Finset.sum_congr rfl fun i _ => ?_
        rw [coe_sum]
        refine Finset.sum_congr rfl fun j _ => ?_
        rw [Ideal.div_coe hD, ← EReal.coe_sub, Ideal.exp_coe, EReal.coe_mul, EReal.coe_mul]
    _ = ∑ p : Fin (k + 1) × J,
          Ideal.div (Ideal.exp ((s p.1 p.2 : EReal) - (m : EReal))) ((den s (k + 1) m : ℝ) : EReal)
            * (v p.1 p.2 : EReal) :=
        (sum_fin_prod (k + 1) (fun i j =>
          Ideal.div (Ideal.exp ((s i j : EReal) - (m : EReal))) ((den s (k + 1) m : ℝ) : EReal) * (v i j : EReal))).symm

/-! ### The concrete sizes: a row of 8192 scores read as 8 tiles of 1024 -/

/-- Tile k (taken mod 8) of a row of 8192 entries: entry j of the tile is entry 1024 · (k mod 8) + j of the row. -/
def tile (s : Fin 8192 → ℝ) (k : ℕ) (j : Fin 1024) : ℝ :=
  s ⟨1024 * (k % 8) + j.val, by have := j.isLt; have := Nat.mod_lt k (by norm_num : 8 > 0); omega⟩

/-- (tile, position) ↦ 1024 · tile + position, a bijection from 8 × 1024 onto 8192. -/
def tileEquiv : Fin 8 × Fin 1024 ≃ Fin 8192 where
  toFun p := ⟨1024 * p.1.val + p.2.val, by have := p.1.isLt; have := p.2.isLt; omega⟩
  invFun i := (⟨i.val / 1024, by have := i.isLt; omega⟩, ⟨i.val % 1024, by omega⟩)
  left_inv p := by
    have h1 := p.1.isLt; have h2 := p.2.isLt
    refine Prod.ext (Fin.ext ?_) (Fin.ext ?_)
    · show (1024 * p.1.val + p.2.val) / 1024 = p.1.val
      omega
    · show (1024 * p.1.val + p.2.val) % 1024 = p.2.val
      omega
  right_inv i := by
    refine Fin.ext ?_
    show 1024 * (i.val / 1024) + i.val % 1024 = i.val
    omega

/-- Entry p.2 of tile p.1 is the row's entry at the image of p. -/
theorem tile_eq (s : Fin 8192 → ℝ) (p : Fin 8 × Fin 1024) : tile s p.1 p.2 = s (tileEquiv p) := by
  unfold tile
  congr 1
  refine Fin.ext ?_
  show 1024 * (p.1.val % 8) + p.2.val = 1024 * p.1.val + p.2.val
  rw [Nat.mod_eq_of_lt p.1.isLt]

/-- The supremum over all tiles is the supremum over the row. -/
theorem sup_tileEquiv (f : Fin 8192 → EReal) :
    Finset.univ.sup (fun q : Fin 8 × Fin 1024 => f (tileEquiv q)) = Finset.univ.sup f := by
  apply le_antisymm
  · exact Finset.sup_le fun q _ => Finset.le_sup (f := f) (Finset.mem_univ (tileEquiv q))
  · refine Finset.sup_le fun i _ => ?_
    have h := Finset.le_sup (f := fun q : Fin 8 × Fin 1024 => f (tileEquiv q)) (Finset.mem_univ (tileEquiv.symm i))
    simpa using h

/-- Streaming the 8 tiles of a row of 8192 real scores s with real values v and dividing gives the softmax
    average of v over the whole row. -/
theorem stream_tiles_eq_softmax (s v : Fin 8192 → ℝ) :
    Ideal.div (stream (fun k j => (tile s k j : EReal)) (fun k j => (tile v k j : EReal)) 8).2.2
        (stream (fun k j => (tile s k j : EReal)) (fun k j => (tile v k j : EReal)) 8).2.1
      = ∑ j : Fin 8192,
          Ideal.div (Ideal.exp ((s j : EReal) - Finset.univ.sup (fun i : Fin 8192 => (s i : EReal))))
            (∑ r : Fin 8192, Ideal.exp ((s r : EReal) - Finset.univ.sup (fun i : Fin 8192 => (s i : EReal))))
          * (v j : EReal) := by
  rw [stream_eq_softmax 8 (by norm_num) (tile s) (tile v)]
  simp only [tile_eq]
  rw [sup_tileEquiv (fun i => (s i : EReal)),
    Equiv.sum_comp tileEquiv
      (fun r => Ideal.exp ((s r : EReal) - Finset.univ.sup (fun i : Fin 8192 => (s i : EReal))))]
  exact Equiv.sum_comp tileEquiv (fun j =>
    Ideal.div (Ideal.exp ((s j : EReal) - Finset.univ.sup (fun i : Fin 8192 => (s i : EReal))))
      (∑ r : Fin 8192, Ideal.exp ((s r : EReal) - Finset.univ.sup (fun i : Fin 8192 => (s i : EReal))))
    * (v j : EReal))

/-! ### Reals stay reals through the linear layers and the scores -/

/-- A linear layer of real arrays is real. -/
theorem proj_coe (x' : (⟨2, ![8192, 1024]⟩ : Shape).Idx → ℝ) (w' : (⟨2, ![1024, 1024]⟩ : Shape).Idx → ℝ)
    (b' : (⟨1, ![1024]⟩ : Shape).Idx → ℝ) (r : Fin 8192) (o : Fin 1024) :
    proj (fun i => (x' i : EReal)) (fun i => (w' i : EReal)) (fun i => (b' i : EReal)) r o
      = (((∑ c : Fin 1024, x' (ix2 r c) * w' (ix2 o c)) + b' (ix1 o) : ℝ) : EReal) := by
  unfold proj
  rw [EReal.coe_add, coe_sum]
  simp only [EReal.coe_mul]

/-- The same with the arrays given pointwise as coercions. -/
theorem proj_coe_of {x : Mat 8192 1024} {w : Mat 1024 1024} {b : Vc 1024}
    {x' : (⟨2, ![8192, 1024]⟩ : Shape).Idx → ℝ} {w' : (⟨2, ![1024, 1024]⟩ : Shape).Idx → ℝ}
    {b' : (⟨1, ![1024]⟩ : Shape).Idx → ℝ}
    (hx : ∀ i, x i = (x' i : EReal)) (hw : ∀ i, w i = (w' i : EReal)) (hb : ∀ i, b i = (b' i : EReal))
    (r : Fin 8192) (o : Fin 1024) :
    proj x w b r o = (((∑ c : Fin 1024, x' (ix2 r c) * w' (ix2 o c)) + b' (ix1 o) : ℝ) : EReal) := by
  have ex : x = fun i => (x' i : EReal) := funext hx
  have ew : w = fun i => (w' i : EReal) := funext hw
  have eb : b = fun i => (b' i : EReal) := funext hb
  rw [ex, ew, eb]
  exact proj_coe x' w' b' r o

/-- A score of real rows is real. -/
theorem score_coe (Q' K' : Fin 8192 → Fin 1024 → ℝ) (r j : Fin 8192) :
    score (fun a c => (Q' a c : EReal)) (fun a c => (K' a c : EReal)) r j
      = ((∑ c : Fin 1024, Q' r c * K' j c : ℝ) : EReal) := by
  unfold score
  rw [coe_sum]
  simp only [EReal.coe_mul]

/-- Softmax attention of real Q, K, V at (r, d) is the streamed quotient over the 8 tiles of row r's scores
    with column d of V as values. -/
theorem attn_coe_eq_stream (Q' K' V' : Fin 8192 → Fin 1024 → ℝ) (r : Fin 8192) (d : Fin 1024) :
    attn (fun a c => (Q' a c : EReal)) (fun a c => (K' a c : EReal)) (fun a c => (V' a c : EReal)) r d
      = Ideal.div
          (stream (fun k j => (tile (fun i => ∑ c : Fin 1024, Q' r c * K' i c) k j : EReal))
            (fun k j => (tile (fun i => V' i d) k j : EReal)) 8).2.2
          (stream (fun k j => (tile (fun i => ∑ c : Fin 1024, Q' r c * K' i c) k j : EReal))
            (fun k j => (tile (fun i => V' i d) k j : EReal)) 8).2.1 := by
  rw [stream_tiles_eq_softmax (fun i => ∑ c : Fin 1024, Q' r c * K' i c) (fun i => V' i d)]
  unfold attn rowSum rowMax
  simp only [score_coe]

end Cert.Attn

end
-- ==== Proof.KernelIdeal.FlashPay.lean ====
/-
  The attention kernel's arithmetic, read at an index.

  One grid step of the kernel holds a tile of 1024 query rows and a tile of 1024 key and value rows. It forms the
  tile's scores (query rows against key rows), takes each row's largest score against the stored running maximum,
  rescales the stored denominator and numerator by the exponential of the old maximum less the new one, and adds
  the tile's own terms: the exponentials of the scores less the new maximum, summed along the row for the
  denominator and multiplied into the value tile for the numerator. Each stored value is read here at one index as
  an expression over the extended reals: the two products as sums over the contracted axis, the two lane
  reductions as a row's supremum and a row's sum, a column cast or broadcast as the column's entry. Together the
  three updates are one streaming step on (maximum, denominator, numerator).
-/
import proofs.«104552_j73632919323068_2_alg».proof.Proof.Gen.KernelIdeal.Skeleton
import proofs.«104552_j73632919323068_2_alg».proof.Proof.OnlineSoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand.Flash

open Idealize.ShloMosaic Idealize.ShloMosaic.ValueIdx Cert.KernelIdeal Cert.KernelIdeal.Gen

/-- The score of row `p` of the query tile against row `j` of the key tile. -/
def sc (q k : Vec Ideal S1024x1024 .bf16) (p j : Fin 1024) : EReal := ∑ c : Fin 1024, q (ix2 p c) * k (ix2 j c)

theorem sc_def (q k : Vec Ideal S1024x1024 .bf16) (p j : Fin 1024) :
    sc q k p j = ∑ c : Fin 1024, q (ix2 p c) * k (ix2 j c) := rfl

/-! ## The two products -/

/-- In the product whose operands both contract their second axis, the left operand's row is the result's row. -/
theorem qk_lhs0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- … and the right operand's row is the result's column. -/
theorem qk_rhs0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The product of the query tile with the transposed key tile (both operands contract their second axis) at
    `(p, j)`: the score of query row `p` against key row `j`. -/
theorem pay7_apply (q k : Vec Ideal S1024x1024 .bf16) (p j : Fin 1024) :
    k1_pay7 (F := Ideal) q k (ix2 p j) = sc q k p j := by
  unfold k1_pay7
  simp only [shapeCast_self, matmul]
  refine (Ideal.matmul_constant_zero_apply (φ₁ := .bf16) (φ₂ := .bf16) dot_S1024x1024_S1024x1024_S1024x1024_1_1_0_0_n_n none q k (ix2 p j)).trans ?_
  rw [← Equiv.sum_comp (contrEquiv1 dot_S1024x1024_S1024x1024_S1024x1024_1_1_0_0_n_n 1024 rfl rfl).symm]
  unfold sc
  refine Finset.sum_congr rfl fun c _ => ?_
  have hk := contrEquiv1_symm_val dot_S1024x1024_S1024x1024_S1024x1024_1_1_0_0_n_n 1024 rfl rfl c
  have el : dot_S1024x1024_S1024x1024_S1024x1024_1_1_0_0_n_n.lhsIdx (ix2 p j) ((contrEquiv1 dot_S1024x1024_S1024x1024_S1024x1024_1_1_0_0_n_n 1024 rfl rfl).symm c) = ix2 p c :=
    funext fun a => Fin.ext (by
      match a with
      | ⟨0, _⟩ => exact qk_lhs0 _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p j) ((contrEquiv1 dot_S1024x1024_S1024x1024_S1024x1024_1_1_0_0_n_n 1024 rfl rfl).symm c) = ix2 j c :=
    funext fun a => Fin.ext (by
      match a with
      | ⟨0, _⟩ => exact qk_rhs0 _ _
      | ⟨1, _⟩ => exact (dot_S1024x1024_S1024x1024_S1024x1024_1_1_0_0_n_n.rhsIdx_val_of_single rfl _ _).trans hk)
  rw [el, er]

/-- In the plain product (rows times columns), the left operand's row is the result's row. -/
theorem pv_lhs0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- … and the right operand's column is the result's column. -/
theorem pv_rhs1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The plain product into a zero accumulator at `(p, d)`: row `p` of the left operand against column `d` of the
    right one. -/
theorem pv_apply (a b : FVec Ideal S1024x1024 .bf16) (p d : Fin 1024) :
    FloatOps.matmul dot_S1024x1024_S1024x1024_S1024x1024_1_0_0_1_n_n none a b (constant S1024x1024 .f32 0x00000000#32) (ix2 p d)
      = ∑ j : Fin 1024, a (ix2 p j) * b (ix2 j d) := by
  refine (Ideal.matmul_constant_zero_apply dot_S1024x1024_S1024x1024_S1024x1024_1_0_0_1_n_n none a b (ix2 p d)).trans ?_
  rw [← Equiv.sum_comp (contrEquiv1 dot_S1024x1024_S1024x1024_S1024x1024_1_0_0_1_n_n 1024 rfl rfl).symm]
  refine Finset.sum_congr rfl fun c _ => ?_
  have hk := contrEquiv1_symm_val dot_S1024x1024_S1024x1024_S1024x1024_1_0_0_1_n_n 1024 rfl rfl c
  have el : dot_S1024x1024_S1024x1024_S1024x1024_1_0_0_1_n_n.lhsIdx (ix2 p d) ((contrEquiv1 dot_S1024x1024_S1024x1024_S1024x1024_1_0_0_1_n_n 1024 rfl rfl).symm c) = ix2 p c :=
    funext fun a => Fin.ext (by
      match a with
      | ⟨0, _⟩ => exact pv_lhs0 _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p d) ((contrEquiv1 dot_S1024x1024_S1024x1024_S1024x1024_1_0_0_1_n_n 1024 rfl rfl).symm c) = ix2 c d :=
    funext fun a => Fin.ext (by
      match a with
      | ⟨0, _⟩ => exact (dot_S1024x1024_S1024x1024_S1024x1024_1_0_0_1_n_n.rhsIdx_val_of_single rfl _ _).trans hk
      | ⟨1, _⟩ => exact pv_rhs1 _ _)
  rw [el, er]

/-! ## Layout: a vector as a column, a column along the rows -/

/-- A vector of `a` entries cast to a column reads, at `(i, u)`, entry `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column's entry `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions -/

/-- The row index `p` with column `k` put back is `(p, k)`. -/
theorem lift_row (h : S1024x1024.Reduces [1] S1024) (p : Fin 1024) (k : Fin (S1024x1024.size 1)) :
    h.lift (ix1 p) k = ix2 p (⟨k.val, k.isLt⟩ : Fin 1024) := by
  funext c; apply Fin.ext
  fin_cases c <;> rfl

/-- The pattern `0xFF800000` is minus infinity, the bottom of the extended reals. -/
theorem ofBits_neg_inf : Ideal.ofBits .f32 0xFF800000#32 = (⊥ : EReal) := by
  simp [Ideal.ofBits, Ideal.ieee]

/-- A fold of `max` from the bottom element is the supremum. -/
theorem fold_max_bot {ι : Type} [Fintype ι] (f : ι → EReal) :
    (Finset.univ : Finset ι).fold max ⊥ f = Finset.univ.sup f := rfl

/-- A maximum-reduction from minus infinity along the lanes is the row's supremum. -/
theorem rowMax_reduce (h : S1024x1024.Reduces [1] S1024) (hφ : FKind.Formats .f32)
    (hacc : (0xFF800000#32 : BitVec 32) = FKind.maximumf.neutral .f32 hφ) (x : FVec Ideal S1024x1024 .f32) (p : Fin 1024) :
    multiReduction .maximumf [1] S1024 x 0xFF800000#32 h hφ hacc (ix1 p)
      = Finset.univ.sup fun j : Fin 1024 => x (ix2 p j) := by
  refine (Ideal.multiReduction_maximumf_single x 0xFF800000#32 h hφ hacc (ix1 p)).trans ?_
  have hf : (x ∘ h.lift (ix1 p)) = fun k : Fin 1024 => x (ix2 p k) := funext fun k => congrArg x (lift_row h p k)
  rw [Ideal.ofBits_def, ofBits_neg_inf]
  exact (congrArg (fun f => Finset.fold max (⊥ : EReal) f (Finset.univ : Finset (Fin 1024))) hf).trans
    (fold_max_bot _)

/-- A sum-reduction along the lanes is the row's sum. -/
theorem rowSum_reduce (h : S1024x1024.Reduces [1] S1024) (hφ : FKind.Formats .f32)
    (hacc : (0x00000000#32 : BitVec 32) = FKind.add.neutral .f32 hφ) (x : FVec Ideal S1024x1024 .f32) (p : Fin 1024) :
    multiReduction .add [1] S1024 x 0x00000000#32 h hφ hacc (ix1 p) = ∑ j : Fin 1024, x (ix2 p j) := by
  refine (Ideal.multiReduction_add_single x 0x00000000#32 h hφ hacc (ix1 p)).trans ?_
  exact Finset.sum_congr rfl fun k _ => congrArg x (lift_row h p k)

/-! ## The streaming step's payloads at an index -/

/-- The new running maximum of row `p`: the old one against the largest score of the tile's row. -/
theorem pay8_apply (q k : Vec Ideal S1024x1024 .bf16) (mo : Vec Ideal S1024x1 .f32) (p : Fin 1024) :
    k1_pay8 (F := Ideal) q k mo (ix2 p (0 : Fin 1))
      = max (mo (ix2 p (0 : Fin 1))) (Finset.univ.sup fun j : Fin 1024 => sc q k p j) := by
  unfold k1_pay8
  refine congrArg (max (mo (ix2 p (0 : Fin 1)))) ?_
  refine (shapeCast_col_apply _ _ p (0 : Fin 1)).trans ?_
  refine (rowMax_reduce _ _ _ _ p).trans ?_
  exact congrArg (fun f => Finset.univ.sup f) (funext fun j => pay7_apply q k p j)

/-- The rescaling factor of row `p`: the exponential of a stored maximum less the new one. -/
theorem pay9_apply (q k : Vec Ideal S1024x1024 .bf16) (mo mo' : Vec Ideal S1024x1 .f32) (p : Fin 1024) :
    k1_pay9 (F := Ideal) q k mo mo' (ix2 p (0 : Fin 1))
      = Ideal.exp (mo' (ix2 p (0 : Fin 1)) - max (mo (ix2 p (0 : Fin 1))) (Finset.univ.sup fun j : Fin 1024 => sc q k p j)) := by
  unfold k1_pay9
  show Ideal.exp (mo' (ix2 p (0 : Fin 1)) - k1_pay8 (F := Ideal) q k mo (ix2 p (0 : Fin 1))) = _
  exact congrArg (fun t => Ideal.exp (mo' (ix2 p (0 : Fin 1)) - t)) (pay8_apply q k mo p)

/-- The tile's weights at `(p, j)`: the exponential of the score less the new maximum of row `p`. -/
theorem pay10_apply (q k : Vec Ideal S1024x1024 .bf16) (mo : Vec Ideal S1024x1 .f32) (p j : Fin 1024) :
    k1_pay10 (F := Ideal) q k mo (ix2 p j) = Ideal.exp (sc q k p j - max (mo (ix2 p (0 : Fin 1))) (Finset.univ.sup fun j : Fin 1024 => sc q k p j)) := by
  unfold k1_pay10
  show Ideal.exp (k1_pay7 (F := Ideal) q k (ix2 p j)
      - broadcastTo S1024x1024 (k1_pay8 (F := Ideal) q k mo) _ (ix2 p j)) = _
  refine congrArg₂ (fun s t => Ideal.exp (s - t)) (pay7_apply q k p j) ?_
  exact (broadcastTo_col_apply _ _ p j).trans (pay8_apply q k mo p)

/-- The new running denominator of row `p`: the old one rescaled plus the tile's weights summed. -/
theorem pay11_apply (q k : Vec Ideal S1024x1024 .bf16) (mo mo' lo : Vec Ideal S1024x1 .f32) (p : Fin 1024) :
    k1_pay11 (F := Ideal) q k mo mo' lo (ix2 p (0 : Fin 1))
      = Ideal.exp (mo' (ix2 p (0 : Fin 1)) - max (mo (ix2 p (0 : Fin 1))) (Finset.univ.sup fun j : Fin 1024 => sc q k p j)) * lo (ix2 p (0 : Fin 1))
        + ∑ j : Fin 1024, Ideal.exp (sc q k p j - max (mo (ix2 p (0 : Fin 1))) (Finset.univ.sup fun j : Fin 1024 => sc q k p j)) := by
  unfold k1_pay11
  refine (congrFun (shapeCast_self _ _) (ix2 p (0 : Fin 1))).trans ?_
  refine (addf_apply (φ := .f32) _ _ _).trans ?_
  refine congrArg₂ (fun s t => s + t) ?_ ?_
  · refine (mulf_apply (φ := .f32) _ _ _).trans ?_
    exact congrArg (fun t => t * lo (ix2 p (0 : Fin 1))) (pay9_apply q k mo mo' p)
  · refine (shapeCast_col_apply _ _ p (0 : Fin 1)).trans ?_
    refine (rowSum_reduce _ _ _ _ p).trans ?_
    exact Finset.sum_congr rfl fun j _ => pay10_apply q k mo p j

/-- The new running numerator at `(p, d)`: the old one rescaled plus the tile's weights against column `d` of the
    value tile. -/
theorem pay12_apply (q k : Vec Ideal S1024x1024 .bf16) (mo mo' : Vec Ideal S1024x1 .f32) (acc : Vec Ideal S1024x1024 .f32)
    (v : Vec Ideal S1024x1024 .bf16) (p d : Fin 1024) :
    k1_pay12 (F := Ideal) q k mo mo' acc v (ix2 p d)
      = Ideal.exp (mo' (ix2 p (0 : Fin 1)) - max (mo (ix2 p (0 : Fin 1))) (Finset.univ.sup fun j : Fin 1024 => sc q k p j)) * acc (ix2 p d)
        + ∑ j : Fin 1024, Ideal.exp (sc q k p j - max (mo (ix2 p (0 : Fin 1))) (Finset.univ.sup fun j : Fin 1024 => sc q k p j)) * v (ix2 j d) := by
  unfold k1_pay12
  refine (addf_apply (φ := .f32) _ _ _).trans ?_
  refine congrArg₂ (fun s t => s + t) ?_ ?_
  · refine (mulf_apply (φ := .f32) _ _ _).trans ?_
    refine congrArg (fun t => t * acc (ix2 p d)) ?_
    exact (broadcastTo_col_apply _ _ p d).trans (pay9_apply q k mo mo' p)
  · refine (pv_apply _ _ p d).trans ?_
    refine Finset.sum_congr rfl fun j _ => ?_
    refine congrArg₂ (fun s t => s * t) ?_ ?_
    · exact pay10_apply q k mo p j
    · exact congrFun (shapeCast_self v _) (ix2 j d)

/-- The streaming step on row `p`'s state and column `d` is what the three payloads compute, when the maximum the
    rescaling factor starts from is the stored running maximum. -/
theorem step_eq (q k v : Vec Ideal S1024x1024 .bf16) (mo lo : Vec Ideal S1024x1 .f32) (acc : Vec Ideal S1024x1024 .f32)
    (p d : Fin 1024) :
    Cert.Attn.step (fun j : Fin 1024 => sc q k p j) (fun j : Fin 1024 => v (ix2 j d))
        (mo (ix2 p (0 : Fin 1)), lo (ix2 p (0 : Fin 1)), acc (ix2 p d))
      = (k1_pay8 (F := Ideal) q k mo (ix2 p (0 : Fin 1)), k1_pay11 (F := Ideal) q k mo mo lo (ix2 p (0 : Fin 1)),
          k1_pay12 (F := Ideal) q k mo mo acc v (ix2 p d)) := by
  rw [pay8_apply, pay11_apply, pay12_apply]
  rfl

/-! ## The other payloads -/

/-- The final quotient at `(p, d)`: the numerator over row `p`'s denominator. -/
theorem pay3_apply (acc : Vec Ideal S1024x1024 .f32) (lo : Vec Ideal S1024x1 .f32) (p d : Fin 1024) :
    k1_pay3 (F := Ideal) acc lo (ix2 p d) = Ideal.div (acc (ix2 p d)) (lo (ix2 p (0 : Fin 1))) := by
  unfold k1_pay3
  refine (divf_apply (φ := .f32) _ _ _).trans ?_
  exact congrArg (Ideal.div (acc (ix2 p d))) (broadcastTo_col_apply _ _ p d)

/-- The initial running maximum is minus infinity. -/
theorem pay4_apply (p : Fin 1024) : k1_pay4 (F := Ideal) (ix2 p (0 : Fin 1)) = (⊥ : EReal) := by
  unfold k1_pay4
  refine (congrFun (shapeCast_self _ _) (ix2 p (0 : Fin 1))).trans ?_
  exact ofBits_neg_inf

/-- The initial running denominator is zero. -/
theorem pay5_apply (p : Fin 1024) : k1_pay5 (F := Ideal) (ix2 p (0 : Fin 1)) = (0 : EReal) := by
  unfold k1_pay5
  refine (congrFun (shapeCast_self _ _) (ix2 p (0 : Fin 1))).trans ?_
  exact Ideal.ofBits_zero_f32

/-- The initial running numerator is zero. -/
theorem pay6_apply (p d : Fin 1024) : k1_pay6 (F := Ideal) (ix2 p d) = (0 : EReal) := by
  unfold k1_pay6
  refine (congrFun (shapeCast_self _ _) (ix2 p d)).trans ?_
  exact Ideal.ofBits_zero_f32

/-- A cast of the numerator to its own shape changes nothing. -/
theorem pay1_eq {F : FTy → Type} [FloatOps F] (x : FVec F S1024x1024 .f32) : k1_pay1 x = x := by
  unfold k1_pay1
  exact shapeCast_self _ _

/-- A cast of the running maximum to its own shape changes nothing. -/
theorem pay2_eq {F : FTy → Type} [FloatOps F] (x : FVec F S1024x1 .f32) : k1_pay2 x = x := by
  unfold k1_pay2
  exact shapeCast_self _ _

end Cert.KernelIdeal.Hand.Flash

end
-- ==== Proof.KernelIdeal.FlashValue.lean ====
/-
  The value of the attention region. Every point of a query tile updates the three scratch buffers by one step of the
  streaming softmax: for the query row `r` and the key tile `k`, with scores  s k j = ∑ c, Q r c · K (1024·k + j) c  and values
  v k j = V (1024·k + j) d, the scratch after the point at key tile `k` holds the streaming state after `k + 1` tiles (by
  induction on the point: a first key tile starts from the reset values −∞, 0, 0, a later one from what the point before
  left). At the last key tile the output block receives numerator / denominator, so the result array ends holding, at
  `(r, d)`, the quotient of the streaming state after all eight tiles.
-/
import proofs.«104552_j73632919323068_2_alg».proof.Proof.KernelIdeal.FlashPieces
import proofs.«104552_j73632919323068_2_alg».proof.Proof.KernelIdeal.FlashPay
import proofs.«104552_j73632919323068_2_alg».proof.Proof.OnlineSoftmax
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Row `p` of the `q`-th block of 1024 rows. -/
def rowIdx (q : ℕ) (p : Fin 1024) : Fin 8192 := ⟨1024 * (q % 8) + p.val, by have := p.isLt; omega⟩

/-- The three projected arrays as the region finds them. -/
abbrev QA (c : Dev nD) : S8192x1024.Idx → EReal := V c main_v9_0
abbrev KA (c : Dev nD) : S8192x1024.Idx → EReal := V c main_v9_1
abbrev VA (c : Dev nD) : S8192x1024.Idx → EReal := V c main_v9_2

/-- The scores of query row `r` against key tile `k`, and column `d` of value tile `k`. -/
def sT (c : Dev nD) (r : Fin 8192) (k : ℕ) (j : Fin 1024) : EReal := ∑ cc : Fin 1024, QA V c (ix2 r cc) * KA V c (ix2 (rowIdx k j) cc)
def vT (c : Dev nD) (d : Fin 1024) (k : ℕ) (j : Fin 1024) : EReal := VA V c (ix2 (rowIdx k j) d)

/-- What the result array ends holding: the streaming state after eight tiles, numerator over denominator. -/
def G (c : Dev nD) : S8192x1024.Idx → EReal := fun i =>
  Ideal.div (stream (sT V c (i 0)) (vT V c (i 1)) 8).2.2 (stream (sT V c (i 0)) (vT V c (i 1)) 8).2.1

/-- The printed index maps over the grid: the query and output blocks move with the first coordinate, the key and value
    blocks with the second. -/
theorem idx_facts : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

theorem q_blk (c : Dev nD) (t : Fin cfg1.N) (p cc : Fin 1024) :
    (iblk1 V c 0 t : S1024x1024.Idx → EReal) (ix2 p cc) = QA V c (ix2 (rowIdx (t.val / 8) p) cc) := by
  obtain ⟨e0, e1, -⟩ := idx_facts t
  have hN : t.val < 64 := lt_of_lt_of_eq t.isLt (show cfg1.N = 64 from N_1)
  show QA V c (((cfg1.win 0).blk t).view.emb (ix2 p cc)) = _
  refine congrArg (QA V c) ?_
  funext a; apply Fin.ext
  match a with
  | ⟨0, _⟩ => show win1_0.index t (0 : Fin 2) * 1024 + 1 * p.val = 1024 * ((t.val / 8) % 8) + p.val; omega
  | ⟨1, _⟩ => show win1_0.index t (1 : Fin 2) * 1024 + 1 * cc.val = cc.val; omega

theorem k_blk (c : Dev nD) (t : Fin cfg1.N) (j cc : Fin 1024) :
    (iblk1 V c 1 t : S1024x1024.Idx → EReal) (ix2 j cc) = KA V c (ix2 (rowIdx (t.val % 8) j) cc) := by
  obtain ⟨-, -, e0, e1, -⟩ := idx_facts t
  show KA V c (((cfg1.win 1).blk t).view.emb (ix2 j cc)) = _
  refine congrArg (KA V c) ?_
  funext a; apply Fin.ext
  match a with
  | ⟨0, _⟩ => show win1_1.index t (0 : Fin 2) * 1024 + 1 * j.val = 1024 * ((t.val % 8) % 8) + j.val; omega
  | ⟨1, _⟩ => show win1_1.index t (1 : Fin 2) * 1024 + 1 * cc.val = cc.val; omega

theorem v_blk (c : Dev nD) (t : Fin cfg1.N) (j d : Fin 1024) :
    (iblk1 V c 2 t : S1024x1024.Idx → EReal) (ix2 j d) = VA V c (ix2 (rowIdx (t.val % 8) j) d) := by
  obtain ⟨-, -, -, -, e0, e1, -⟩ := idx_facts t
  show VA V c (((cfg1.win 2).blk t).view.emb (ix2 j d)) = _
  refine congrArg (VA V c) ?_
  funext a; apply Fin.ext
  match a with
  | ⟨0, _⟩ => show win1_2.index t (0 : Fin 2) * 1024 + 1 * j.val = 1024 * ((t.val % 8) % 8) + j.val; omega
  | ⟨1, _⟩ => show win1_2.index t (1 : Fin 2) * 1024 + 1 * d.val = d.val; omega

/-- The point's score tile and value tile are the arrays' tiles. -/
theorem tile_sc (c : Dev nD) (t : Fin cfg1.N) (p : Fin 1024) :
    (fun j => Flash.sc (iblk1 V c 0 t) (iblk1 V c 1 t) p j) = sT V c (rowIdx (t.val / 8) p) (t.val % 8) := by
  funext j
  unfold Flash.sc sT
  exact Finset.sum_congr rfl fun cc _ => by rw [q_blk, k_blk]

theorem tile_v (c : Dev nD) (t : Fin cfg1.N) (d : Fin 1024) :
    (fun j => (iblk1 V c 2 t : S1024x1024.Idx → EReal) (ix2 j d)) = vT V c d (t.val % 8) := by
  funext j
  unfold vT
  exact v_blk V c t j d

/-- A first key tile leaves one streaming step from the reset state. -/
theorem first_step (c : Dev nD) (t : Fin cfg1.N) (h0 : t.val % 8 = 0) (p d : Fin 1024) :
    ((atA V c t h0).2.1 (ix2 p 0), (atA V c t h0).2.2.1 (ix2 p 0), (atA V c t h0).2.2.2 (ix2 p d))
      = stream (sT V c (rowIdx (t.val / 8) p)) (vT V c d) 1 := by
  unfold atA
  dsimp only
  rw [sout_A_0, sout_A_1, sout_A_2, Flash.pay2_eq, Flash.pay1_eq]
  refine (Flash.step_eq (iblk1 V c 0 t) (iblk1 V c 1 t) (iblk1 V c 2 t) (k1_pay4 (F := Ideal)) (k1_pay5 (F := Ideal)) (k1_pay6 (F := Ideal)) p d).symm.trans ?_
  rw [Flash.pay4_apply, Flash.pay5_apply, Flash.pay6_apply, tile_sc, tile_v, h0]
  rfl

/-- THE INVARIANT: after the point at position `n` the scratch holds the streaming state after `n % 8 + 1` tiles of the
    query tile `n / 8`. -/
theorem inv (c : Dev nD) : ∀ (n : ℕ) (hn : n < cfg1.N) (p d : Fin 1024),
    ((outsAt1 V c n hn).2.1 (ix2 p 0), (outsAt1 V c n hn).2.2.1 (ix2 p 0), (outsAt1 V c n hn).2.2.2 (ix2 p d))
      = stream (sT V c (rowIdx (n / 8) p)) (vT V c d) (n % 8 + 1)
  | 0, hn, p, d => by
    rw [outsAt1_A V c ⟨0, hn⟩ (Nat.zero_mod _)]
    exact first_step V c ⟨0, hn⟩ (Nat.zero_mod _) p d
  | n + 1, hn, p, d => by
    have hN : n + 1 < 64 := lt_of_lt_of_eq hn (show cfg1.N = 64 from N_1)
    by_cases h0 : (n + 1) % 8 = 0
    · rw [outsAt1_A V c ⟨n + 1, hn⟩ h0, first_step V c ⟨n + 1, hn⟩ h0 p d]
      show stream _ _ 1 = stream _ _ ((n + 1) % 8 + 1)
      rw [h0]
    · have hk : (n + 1) % 8 = n % 8 + 1 := by omega
      have hq : (n + 1) / 8 = n / 8 := by omega
      have ih := inv c n (Nat.lt_of_succ_lt hn) p d
      by_cases h1 : (n + 1) % 8 = 7
      · rw [outsAt1_C V c ⟨n + 1, hn⟩ h0 h1]
        unfold atC
        dsimp only
        rw [sout_C_0, sout_C_1, sout_C_2, Flash.pay2_eq, Flash.pay1_eq]
        refine (Flash.step_eq (iblk1 V c 0 ⟨n + 1, hn⟩) (iblk1 V c 1 ⟨n + 1, hn⟩) (iblk1 V c 2 ⟨n + 1, hn⟩)
          (outsAt1 V c n (Nat.lt_of_succ_lt hn)).2.1 (outsAt1 V c n (Nat.lt_of_succ_lt hn)).2.2.1 (outsAt1 V c n (Nat.lt_of_succ_lt hn)).2.2.2 p d).symm.trans ?_
        rw [ih, tile_sc, tile_v]
        show step (sT V c (rowIdx ((n + 1) / 8) p) ((n + 1) % 8)) (vT V c d ((n + 1) % 8)) _ = _
        rw [hk, hq]
        rfl
      · rw [outsAt1_B V c ⟨n + 1, hn⟩ h0 h1]
        unfold atB
        dsimp only
        rw [sout_B_0, sout_B_1, sout_B_2, Flash.pay2_eq, Flash.pay1_eq]
        refine (Flash.step_eq (iblk1 V c 0 ⟨n + 1, hn⟩) (iblk1 V c 1 ⟨n + 1, hn⟩) (iblk1 V c 2 ⟨n + 1, hn⟩)
          (outsAt1 V c n (Nat.lt_of_succ_lt hn)).2.1 (outsAt1 V c n (Nat.lt_of_succ_lt hn)).2.2.1 (outsAt1 V c n (Nat.lt_of_succ_lt hn)).2.2.2 p d).symm.trans ?_
        rw [ih, tile_sc, tile_v]
        show step (sT V c (rowIdx ((n + 1) / 8) p) ((n + 1) % 8)) (vT V c d ((n + 1) % 8)) _ = _
        rw [hk, hq]
        rfl

/-- At a last key tile the output block is the new numerator over the new denominator. -/
theorem out_last (c : Dev nD) (t : Fin cfg1.N) (h1 : t.val % 8 = 7) :
    (outsAt1 V c t.val t.isLt).1 = k1_pay3 (outsAt1 V c t.val t.isLt).2.2.2 (outsAt1 V c t.val t.isLt).2.2.1 := by
  have h0 : ¬t.val % 8 = 0 := by omega
  rw [outsAt1_C V c t h0 h1]
  unfold atC
  dsimp only
  rw [out_C_3, sout_C_2, sout_C_1]

/-- WHAT A WRITING POINT WRITES BACK is its block of `G`. -/
theorem flushed_eq (c : Dev nD) (t : Fin cfg1.N) (hf : (cfg1.win 3).flush t = true) :
    (dat1 V c).flushed 3 t = ((cfg1.win 3).blk t).view.read (Elt Ideal) (G V c) := by
  have h7 : t.val % 8 = 7 := (flush1_3 t).mp hf
  have hN : t.val < 64 := lt_of_lt_of_eq t.isLt (show cfg1.N = 64 from N_1)
  obtain ⟨-, -, -, -, -, -, e0, e1⟩ := idx_facts t
  show (cfg1.win 3).cut (grid1.coords t) ((dat1 V c).after 3 t) = _
  rw [after1_3, out_last V c t h7]
  funext y
  obtain ⟨p, d, rfl⟩ : ∃ (p : Fin 1024) (d : Fin 1024), y = ix2 p d := ⟨y 0, y 1, eq_ix2 y⟩
  show k1_pay3 (outsAt1 V c t.val t.isLt).2.2.2 (outsAt1 V c t.val t.isLt).2.2.1 (ix2 p d) = G V c (((cfg1.win 3).blk t).view.emb (ix2 p d))
  rw [Flash.pay3_apply]
  have hinv := inv V c t.val t.isLt p d
  have h2 : (outsAt1 V c t.val t.isLt).2.2.1 (ix2 p 0) = (stream (sT V c (rowIdx (t.val / 8) p)) (vT V c d) (t.val % 8 + 1)).2.1 := congrArg (fun x => x.2.1) hinv
  have h3 : (outsAt1 V c t.val t.isLt).2.2.2 (ix2 p d) = (stream (sT V c (rowIdx (t.val / 8) p)) (vT V c d) (t.val % 8 + 1)).2.2 := congrArg (fun x => x.2.2) hinv
  rw [h2, h3, h7]
  have e : ((cfg1.win 3).blk t).view.emb (ix2 p d) = ix2 (rowIdx (t.val / 8) p) d := by
    funext a; apply Fin.ext
    match a with
    | ⟨0, _⟩ => show win1_3.index t (0 : Fin 2) * 1024 + 1 * p.val = 1024 * ((t.val / 8) % 8) + p.val; omega
    | ⟨1, _⟩ => show win1_3.index t (1 : Fin 2) * 1024 + 1 * d.val = d.val; omega
  rw [e]
  rfl

theorem mem_blk3 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v10).slice (win1_3.rect t)).set ↔ _
  rw [View.set_slice_whole, Rect.mem_set_unit]
  exact Iff.rfl

/-- Every row is in the block of its query tile's last point. -/
theorem cover3 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  let t : Fin cfg1.N := ⟨8 * ((i 0).val / 1024) + 7, by rw [show cfg1.N = 64 from N_1]; omega⟩
  have ht : t.val = 8 * ((i 0).val / 1024) + 7 := rfl
  obtain ⟨-, -, -, -, -, -, e0, e1⟩ := idx_facts t
  refine ⟨t, (flush1_3 t).mpr (by rw [ht]; omega), ?_⟩
  rw [mem_blk3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- THE RESULT ARRAY after the region. -/
theorem final3 (c : Dev nD) : (dat1 V c).arrAt 3 cfg1.N = G V c :=
  (dat1 V c).arrAt_eq_of_cover 3 (G V c) (flushed_eq V c) cover3

end Cert.KernelIdeal.Hand

end
-- ==== Proof.KernelIdeal.ProjValue.lean ====
/-
  The first kernel region's value: each of its three result arrays is a linear layer of the activations.

  At every grid point the body multiplies a 512-row block of the activations by a transposed weight matrix (a
  contraction over the 1024 columns, into a zero accumulator), adds the bias row to every row, and stores the block.
  Read at an index (p, q) of the block that is  ∑ k, x (p, k) · wᵀ (k, q) + b q.  The transposed weight matrix is what
  the host operations before the region wrote:  wᵀ (k, q) = w (q, k),  and the bias row is the bias reshaped to one row.
  Point t writes rows 512 t … 512 t + 511, so the sixteen points tile the 8192 rows, and the whole array is the
  linear layer of the specification, index by index.
-/
import proofs.«104552_j73632919323068_2_alg».proof.Proof.KernelIdeal.Proj
import proofs.«104552_j73632919323068_2_alg».proof.Proof.Gen.KernelIdeal.Regions
import proofs.«104552_j73632919323068_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ### The body's arithmetic at an index -/

theorem lhsP_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsP_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsP_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsP_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The contraction of a 512 × 1024 block with a 1024 × 1024 matrix over the block's columns and the matrix's rows,
    into a zero accumulator, at (p, q): the sum over k of block (p, k) times matrix (k, q). -/
theorem matmul_block_apply (a : FVec Ideal S512x1024 .bf16) (wt : FVec Ideal S1024x1024 .bf16) (p : Fin 512) (q : Fin 1024) :
    (matmul dot_S512x1024_S1024x1024_S512x1024_1_0_0_1_n_n none a wt (constant S512x1024 .f32 0x00000000#32) : FVec Ideal S512x1024 .f32) (ix2 p q)
      = ∑ k : Fin 1024, a (ix2 p k) * wt (ix2 k q) := by
  show FloatOps.matmul _ _ _ _ _ _ = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhsP_0 _ _
    | ⟨1, _⟩ => exact (lhsP_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhsP_0 _ _).trans hk
    | ⟨1, _⟩ => exact rhsP_1 _ _)
  rw [el, er]

/-- The body's first result at (p, q): row p of the block against column q of the transposed weights, plus the bias
    row at q. -/
theorem pay2_apply (x0 : Vec Ideal S512x1024 .f32) (xw : Vec Ideal S1024x1024 .bf16) (xb : Vec Ideal S1x1024 .f32)
    (p : Fin 512) (q : Fin 1024) :
    (k0_pay2 x0 xw xb : FVec Ideal S512x1024 .bf16) (ix2 p q)
      = (∑ k : Fin 1024, x0 (ix2 p k) * xw (ix2 k q)) + xb (ix2 0 q) := by
  unfold k0_pay2 k0_pay1
  simp only []
  rw [truncf_apply, addf_apply, shapeCast_self, shapeCast_self, matmul_block_apply]
  congr 1
  exact broadcastTo_apply xb broadcasts_S1x1024_S512x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The body's second result at (p, q): the same arithmetic on the second weight matrix and bias row. -/
theorem pay3_apply (x0 : Vec Ideal S512x1024 .f32) (xw : Vec Ideal S1024x1024 .bf16) (xb : Vec Ideal S1x1024 .f32)
    (p : Fin 512) (q : Fin 1024) :
    (k0_pay3 x0 xw xb : FVec Ideal S512x1024 .bf16) (ix2 p q)
      = (∑ k : Fin 1024, x0 (ix2 p k) * xw (ix2 k q)) + xb (ix2 0 q) := by
  unfold k0_pay3 k0_pay1
  simp only []
  rw [truncf_apply, addf_apply, shapeCast_self, shapeCast_self, matmul_block_apply]
  congr 1
  exact broadcastTo_apply xb broadcasts_S1x1024_S512x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The body's third result at (p, q): the same arithmetic on the third weight matrix and bias row. -/
theorem pay4_apply (x0 : Vec Ideal S512x1024 .f32) (xw : Vec Ideal S1024x1024 .bf16) (xb : Vec Ideal S1x1024 .f32)
    (p : Fin 512) (q : Fin 1024) :
    (k0_pay4 x0 xw xb : FVec Ideal S512x1024 .bf16) (ix2 p q)
      = (∑ k : Fin 1024, x0 (ix2 p k) * xw (ix2 k q)) + xb (ix2 0 q) := by
  unfold k0_pay4 k0_pay1
  simp only []
  rw [truncf_apply, addf_apply, shapeCast_self, shapeCast_self, matmul_block_apply]
  congr 1
  exact broadcastTo_apply xb broadcasts_S1x1024_S512x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-! ### What the region finds in its arrays -/

section Entry

variable {F : FTy → Type} [FloatOps F]
variable (m : (ℓ : Loc nD τ sig) → Buf (Elt F) ℓ)

/-- The contents of the core's buffers when the region is entered: what the host operations before it leave. -/
abbrev projEntry (c : Dev nD) (b : Ref sig .tc) : Buf (Elt F) ((c : Thread nD τ).loc b) := Gen.V1 m c b

/-- The activations are as launched. -/
theorem entry_arg0 (c : Dev nD) : projEntry m c main_arg0 = m ((c : Thread nD τ).loc main_arg0) :=
  Gen.V1_of m c main_arg0 (by decide)

/-- The first window of weights: the first weight argument transposed (and narrowed). -/
theorem entry_v1 (c : Dev nD) :
    (projEntry m c main_v1 : (⟨S1024x1024, .bf16⟩ : BufTy).Contents (Elt F))
      = truncf .bf16 (transpose S1024x1024 [1, 0] (m ((c : Thread nD τ).loc main_arg3) : (⟨S1024x1024, .f32⟩ : BufTy).Contents (Elt F)) transposes_S1024x1024_S1024x1024_1_0) bitsLt_bf16_f32 := by
  dsimp only [projEntry, Gen.V1, Gen.hostOps0]
  after_results

/-- The second window of weights: the second weight argument transposed (and narrowed). -/
theorem entry_v3 (c : Dev nD) :
    (projEntry m c main_v3 : (⟨S1024x1024, .bf16⟩ : BufTy).Contents (Elt F))
      = truncf .bf16 (transpose S1024x1024 [1, 0] (m ((c : Thread nD τ).loc main_arg1) : (⟨S1024x1024, .f32⟩ : BufTy).Contents (Elt F)) transposes_S1024x1024_S1024x1024_1_0) bitsLt_bf16_f32 := by
  dsimp only [projEntry, Gen.V1, Gen.hostOps0]
  after_results

/-- The third window of weights: the third weight argument transposed (and narrowed). -/
theorem entry_v5 (c : Dev nD) :
    (projEntry m c main_v5 : (⟨S1024x1024, .bf16⟩ : BufTy).Contents (Elt F))
      = truncf .bf16 (transpose S1024x1024 [1, 0] (m ((c : Thread nD τ).loc main_arg5) : (⟨S1024x1024, .f32⟩ : BufTy).Contents (Elt F)) transposes_S1024x1024_S1024x1024_1_0) bitsLt_bf16_f32 := by
  dsimp only [projEntry, Gen.V1, Gen.hostOps0]
  after_results

/-- The first bias row: the first bias argument as one row. -/
theorem entry_v6 (c : Dev nD) :
    (projEntry m c main_v6 : (⟨S1x1024, .f32⟩ : BufTy).Contents (Elt F))
      = shapeCast S1x1024 (m ((c : Thread nD τ).loc main_arg4) : (⟨S1024, .f32⟩ : BufTy).Contents (Elt F)) shapeCasts_S1024_S1x1024 := by
  dsimp only [projEntry, Gen.V1, Gen.hostOps0]
  after_results
  rfl

/-- The second bias row: the second bias argument as one row. -/
theorem entry_v7 (c : Dev nD) :
    (projEntry m c main_v7 : (⟨S1x1024, .f32⟩ : BufTy).Contents (Elt F))
      = shapeCast S1x1024 (m ((c : Thread nD τ).loc main_arg2) : (⟨S1024, .f32⟩ : BufTy).Contents (Elt F)) shapeCasts_S1024_S1x1024 := by
  dsimp only [projEntry, Gen.V1, Gen.hostOps0]
  after_results
  rfl

/-- The third bias row: the third bias argument as one row. -/
theorem entry_v8 (c : Dev nD) :
    (projEntry m c main_v8 : (⟨S1x1024, .f32⟩ : BufTy).Contents (Elt F))
      = shapeCast S1x1024 (m ((c : Thread nD τ).loc main_arg6) : (⟨S1024, .f32⟩ : BufTy).Contents (Elt F)) shapeCasts_S1024_S1x1024 := by
  dsimp only [projEntry, Gen.V1, Gen.hostOps0]
  after_results
  rfl

end Entry

/-! ### The entry contents at an index, at the ideal values -/

section EntryIdeal

variable (m : (ℓ : Loc nD τ sig) → Buf (Elt Ideal) ℓ)

/-- A transposed (and narrowed) weight matrix at (k, q) is the weight matrix at (q, k). -/
theorem transposed_apply (w : (⟨S1024x1024, .f32⟩ : BufTy).Contents (Elt Ideal)) (k q : Fin 1024) :
    (truncf .bf16 (transpose S1024x1024 [1, 0] w transposes_S1024x1024_S1024x1024_1_0) bitsLt_bf16_f32 : FVec Ideal S1024x1024 .bf16) (ix2 k q)
      = w (ix2 q k) := by
  rw [truncf_apply]
  exact transpose_apply [1, 0] w transposes_S1024x1024_S1024x1024_1_0 (ix2 k q) (ix2 q k) (fun b => match b with
    | ⟨0, _⟩ => rfl
    | ⟨1, _⟩ => rfl)

/-- A bias as one row, at (0, q), is the bias at q. -/
theorem bias_row_apply (b : (⟨S1024, .f32⟩ : BufTy).Contents (Elt Ideal)) (q : Fin 1024) :
    (shapeCast S1x1024 b shapeCasts_S1024_S1x1024 : FVec Ideal S1x1024 .f32) (ix2 0 q) = b (ix1 q) := by
  refine shapeCast_apply b shapeCasts_S1024_S1x1024 (ix2 0 q) (ix1 q) ?_
  rw [Shape.rowMajor_val_one, Shape.rowMajor_val_two]
  show q.val = 0 * 1024 + q.val
  omega

end EntryIdeal

/-! ### From blocks to the arrays -/

theorem hz2 : (![0, 0] : Fin 2 → Nat) = fun _ => 0 := funext fun a => by fin_cases a <;> rfl

/-- The printed index maps over the grid: at point t the activations' block and each result's block is block (t, 0);
    the weights and the bias rows are whole, block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- One block of one result, over variables: if the loaded block of activations is rows 512 tv … of X, the loaded
    weights are W transposed and the loaded bias row is B as a row, then a result block that is their product plus the bias row, at j, is the linear layer
    of X, W, B at the array index i that j is at. -/
theorem block_eq (X : S8192x1024.Idx → EReal) (W : S1024x1024.Idx → EReal) (B : S1024.Idx → EReal)
    (x0 : Vec Ideal S512x1024 .f32) (xw : Vec Ideal S1024x1024 .bf16) (xb : Vec Ideal S1x1024 .f32)
    (pay : FVec Ideal S512x1024 .bf16)
    (hpay : ∀ (p : Fin 512) (q : Fin 1024), pay (ix2 p q) = (∑ k : Fin 1024, x0 (ix2 p k) * xw (ix2 k q)) + xb (ix2 0 q))
    (tv : ℕ) (ht : tv < 16)
    (hx : ∀ (p : Fin 512) (k : Fin 1024), x0 (ix2 p k) = X (ix2 (⟨512 * tv + p.val, by have := p.isLt; omega⟩ : Fin 8192) k))
    (hw : ∀ k q : Fin 1024, xw (ix2 k q) = W (ix2 q k))
    (hb : ∀ q : Fin 1024, xb (ix2 (0 : Fin 1) q) = B (ix1 q))
    (j : S512x1024.Idx) (i : S8192x1024.Idx) (hi0 : (i 0).val = 512 * tv + (j 0).val) (hi1 : (i 1).val = (j 1).val) :
    pay j = Cert.Attn.proj X W B (i 0) (i 1) := by
  obtain ⟨p, q, rfl⟩ : ∃ (p : Fin 512) (q : Fin 1024), j = ix2 p q := ⟨j 0, j 1, eq_ix2 j⟩
  have e0 : i 0 = (⟨512 * tv + p.val, by have := p.isLt; omega⟩ : Fin 8192) := Fin.ext hi0
  have e1 : i 1 = q := Fin.ext hi1
  rw [hpay, e0, e1]
  unfold Cert.Attn.proj
  rw [hb]
  congr 1
  refine Finset.sum_congr rfl fun k _ => ?_
  rw [hx, hw]

section Blocks

variable (m : (ℓ : Loc nD τ sig) → Buf (Elt Ideal) ℓ)

/-- The activations' block at point t is rows 512 t … 512 t + 511 of the activations as launched. -/
theorem iblk_x_apply (c : Dev nD) (t : Fin cfg0.N) (p : Fin 512) (k : Fin 1024) :
    (iblk0 (projEntry m) c 0 t : Vec Ideal S512x1024 .f32) (ix2 p k)
      = (m ((c : Thread nD τ).loc main_arg0) : S8192x1024.Idx → EReal)
          (ix2 (⟨512 * t.val + p.val, by have := p.isLt; have := t.isLt; have hN : cfg0.N = 16 := N_0; omega⟩ : Fin 8192) k) := by
  obtain ⟨h00, h01, -⟩ := idx_facts0 t
  unfold iblk0
  rw [View.read_apply]
  show projEntry m c main_arg0 _ = m (c.tc.loc main_arg0) _
  rw [entry_arg0]
  congr 1
  funext a
  apply Fin.ext
  match a with
  | ⟨0, _⟩ => show win0_0.index t (0 : Fin 2) * 512 + 1 * p.val = 512 * t.val + p.val; rw [h00]; omega
  | ⟨1, _⟩ => show win0_0.index t (1 : Fin 2) * 1024 + 1 * k.val = k.val; rw [h01]; omega

/-- The first weights' block (the whole matrix) at (k, q) is the first weight argument at (q, k). -/
theorem iblk_w1_apply (c : Dev nD) (t : Fin cfg0.N) (k q : Fin 1024) :
    (iblk0 (projEntry m) c 1 t : Vec Ideal S1024x1024 .bf16) (ix2 k q)
      = (m ((c : Thread nD τ).loc main_arg3) : S1024x1024.Idx → EReal) (ix2 q k) := by
  obtain ⟨-, -, h0, h1, -⟩ := idx_facts0 t
  unfold iblk0
  rw [View.read_apply]
  show projEntry m c main_v1 _ = _
  have e : ((cfg0.win 1).blk t).view.emb (ix2 k q) = (ix2 k q : S1024x1024.Idx) := by
    funext a
    apply Fin.ext
    match a with
    | ⟨0, _⟩ => show win0_1.index t (0 : Fin 2) * 1024 + 1 * k.val = k.val; rw [h0]; omega
    | ⟨1, _⟩ => show win0_1.index t (1 : Fin 2) * 1024 + 1 * q.val = q.val; rw [h1]; omega
  rw [e, entry_v1]
  exact transposed_apply _ k q

/-- The first bias row's block (the whole row) at (0, q) is the first bias argument at q. -/
theorem iblk_b4_apply (c : Dev nD) (t : Fin cfg0.N) (q : Fin 1024) :
    (iblk0 (projEntry m) c 4 t : Vec Ideal S1x1024 .f32) (ix2 (0 : Fin 1) q)
      = (m ((c : Thread nD τ).loc main_arg4) : S1024.Idx → EReal) (ix1 q) := by
  obtain ⟨-, -, -, -, -, -, -, -, h0, h1, -⟩ := idx_facts0 t
  unfold iblk0
  rw [View.read_apply]
  show projEntry m c main_v6 _ = _
  have e : ((cfg0.win 4).blk t).view.emb (ix2 (0 : Fin 1) q) = (ix2 (0 : Fin 1) q : S1x1024.Idx) := by
    funext a
    apply Fin.ext
    match a with
    | ⟨0, _⟩ => show win0_4.index t (0 : Fin 2) * 1 + 1 * 0 = 0; rw [h0]
    | ⟨1, _⟩ => show win0_4.index t (1 : Fin 2) * 1024 + 1 * q.val = q.val; rw [h1]; omega
  rw [e, entry_v6]
  exact bias_row_apply _ q

/-- The first result array as one function of the arguments: the linear layer of the activations with the first
    weight and bias arguments (arguments 3 and 4). -/
abbrev GQ (c : Dev nD) : S8192x1024.Idx → EReal := fun i =>
  Cert.Attn.proj (m ((c : Thread nD τ).loc main_arg0) : S8192x1024.Idx → EReal)
    (m ((c : Thread nD τ).loc main_arg3) : S1024x1024.Idx → EReal)
    (m ((c : Thread nD τ).loc main_arg4) : S1024.Idx → EReal) (i 0) (i 1)

/-- What point t writes back to the first result array is block t of that function. -/
theorem flushed7_eq (c : Dev nD) (t : Fin cfg0.N) :
    (dat0 (projEntry m) c).flushed 7 t = ((cfg0.win 7).blk t).view.read (Elt Ideal) (GQ m c) := by
  show (cfg0.win 7).cut (grid0.coords t) ((dat0 (projEntry m) c).after 7 t) = _
  rw [after0_7]
  unfold out0_7
  rw [View.canon_unit_zero hz2]
  simp only [View.ld_unit_zero (S := S512x1024) hz2, View.ld_unit_zero (S := S1024x1024) hz2, View.ld_unit_zero (S := S1x1024) hz2]
  obtain ⟨-, -, -, -, -, -, -, -, -, -, -, -, -, -, h0, h1, -⟩ := idx_facts0 t
  have hN : cfg0.N = 16 := N_0
  have ht : t.val < 16 := by have := t.isLt; omega
  funext j
  show (k0_pay2 (iblk0 (projEntry m) c 0 t) (iblk0 (projEntry m) c 1 t) (iblk0 (projEntry m) c 4 t) : FVec Ideal S512x1024 .bf16) j
    = GQ m c (((cfg0.win 7).blk t).view.emb j)
  exact block_eq _ _ _ (iblk0 (projEntry m) c 0 t) (iblk0 (projEntry m) c 1 t) (iblk0 (projEntry m) c 4 t) _
    (pay2_apply _ _ _) t.val ht (iblk_x_apply m c t) (iblk_w1_apply m c t) (iblk_b4_apply m c t) j _
    (by show win0_7.index t (0 : Fin 2) * 512 + 1 * (j 0).val = 512 * t.val + (j 0).val; rw [h0]; omega)
    (by show win0_7.index t (1 : Fin 2) * 1024 + 1 * (j 1).val = (j 1).val; rw [h1]; omega)

/-- An index of the first result array is in point t's block iff each coordinate is in the block's range. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v9_0).slice (win0_7.rect t)).set ↔ _
  rw [View.set_slice_whole, Rect.mem_set_unit]
  exact Iff.rfl

/-- Row r of the first result array is in the block of point r / 512. -/
theorem cover7 (i : S8192x1024.Idx) :
    ∃ t : Fin cfg0.N, (cfg0.win 7).flush t = true ∧ i ∈ ((cfg0.win 7).blk t).view.set := by
  have hN : cfg0.N = 16 := N_0
  have hi0 : (i 0).val < 8192 := (i 0).isLt
  have hi1 : (i 1).val < 1024 := (i 1).isLt
  obtain ⟨t, ht⟩ : ∃ t : Fin cfg0.N, t.val = (i 0).val / 512 := ⟨⟨(i 0).val / 512, by omega⟩, rfl⟩
  obtain ⟨-, -, -, -, -, -, -, -, -, -, -, -, -, -, h0, h1, -⟩ := idx_facts0 t
  refine ⟨t, flush0_7 t, ?_⟩
  rw [mem_blk7]
  intro a
  match a with
  | ⟨0, _⟩ =>
    show win0_7.index t (0 : Fin 2) * 512 ≤ (i 0).val ∧ (i 0).val < win0_7.index t (0 : Fin 2) * 512 + 512
    rw [h0]; omega
  | ⟨1, _⟩ =>
    show win0_7.index t (1 : Fin 2) * 1024 ≤ (i 1).val ∧ (i 1).val < win0_7.index t (1 : Fin 2) * 1024 + 1024
    rw [h1]; omega

/-- The first result array after the region: the linear layer of the specification, index by index. -/
theorem projQ (c : Dev nD) : (dat0 (projEntry m) c).arrAt 7 cfg0.N = GQ m c :=
  (dat0 (projEntry m) c).arrAt_eq_of_cover 7 (GQ m c) (fun t _ => flushed7_eq m c t) cover7

/-- The second weights' block (the whole matrix) at (k, q) is the second weight argument at (q, k). -/
theorem iblk_w2_apply (c : Dev nD) (t : Fin cfg0.N) (k q : Fin 1024) :
    (iblk0 (projEntry m) c 2 t : Vec Ideal S1024x1024 .bf16) (ix2 k q)
      = (m ((c : Thread nD τ).loc main_arg1) : S1024x1024.Idx → EReal) (ix2 q k) := by
  obtain ⟨-, -, -, -, h0, h1, -⟩ := idx_facts0 t
  unfold iblk0
  rw [View.read_apply]
  show projEntry m c main_v3 _ = _
  have e : ((cfg0.win 2).blk t).view.emb (ix2 k q) = (ix2 k q : S1024x1024.Idx) := by
    funext a
    apply Fin.ext
    match a with
    | ⟨0, _⟩ => show win0_2.index t (0 : Fin 2) * 1024 + 1 * k.val = k.val; rw [h0]; omega
    | ⟨1, _⟩ => show win0_2.index t (1 : Fin 2) * 1024 + 1 * q.val = q.val; rw [h1]; omega
  rw [e, entry_v3]
  exact transposed_apply _ k q

/-- The second bias row's block (the whole row) at (0, q) is the second bias argument at q. -/
theorem iblk_b5_apply (c : Dev nD) (t : Fin cfg0.N) (q : Fin 1024) :
    (iblk0 (projEntry m) c 5 t : Vec Ideal S1x1024 .f32) (ix2 (0 : Fin 1) q)
      = (m ((c : Thread nD τ).loc main_arg2) : S1024.Idx → EReal) (ix1 q) := by
  obtain ⟨-, -, -, -, -, -, -, -, -, -, h0, h1, -⟩ := idx_facts0 t
  unfold iblk0
  rw [View.read_apply]
  show projEntry m c main_v7 _ = _
  have e : ((cfg0.win 5).blk t).view.emb (ix2 (0 : Fin 1) q) = (ix2 (0 : Fin 1) q : S1x1024.Idx) := by
    funext a
    apply Fin.ext
    match a with
    | ⟨0, _⟩ => show win0_5.index t (0 : Fin 2) * 1 + 1 * 0 = 0; rw [h0]
    | ⟨1, _⟩ => show win0_5.index t (1 : Fin 2) * 1024 + 1 * q.val = q.val; rw [h1]; omega
  rw [e, entry_v7]
  exact bias_row_apply _ q

/-- The third weights' block (the whole matrix) at (k, q) is the third weight argument at (q, k). -/
theorem iblk_w3_apply (c : Dev nD) (t : Fin cfg0.N) (k q : Fin 1024) :
    (iblk0 (projEntry m) c 3 t : Vec Ideal S1024x1024 .bf16) (ix2 k q)
      = (m ((c : Thread nD τ).loc main_arg5) : S1024x1024.Idx → EReal) (ix2 q k) := by
  obtain ⟨-, -, -, -, -, -, h0, h1, -⟩ := idx_facts0 t
  unfold iblk0
  rw [View.read_apply]
  show projEntry m c main_v5 _ = _
  have e : ((cfg0.win 3).blk t).view.emb (ix2 k q) = (ix2 k q : S1024x1024.Idx) := by
    funext a
    apply Fin.ext
    match a with
    | ⟨0, _⟩ => show win0_3.index t (0 : Fin 2) * 1024 + 1 * k.val = k.val; rw [h0]; omega
    | ⟨1, _⟩ => show win0_3.index t (1 : Fin 2) * 1024 + 1 * q.val = q.val; rw [h1]; omega
  rw [e, entry_v5]
  exact transposed_apply _ k q

/-- The third bias row's block (the whole row) at (0, q) is the third bias argument at q. -/
theorem iblk_b6_apply (c : Dev nD) (t : Fin cfg0.N) (q : Fin 1024) :
    (iblk0 (projEntry m) c 6 t : Vec Ideal S1x1024 .f32) (ix2 (0 : Fin 1) q)
      = (m ((c : Thread nD τ).loc main_arg6) : S1024.Idx → EReal) (ix1 q) := by
  obtain ⟨-, -, -, -, -, -, -, -, -, -, -, -, h0, h1, -⟩ := idx_facts0 t
  unfold iblk0
  rw [View.read_apply]
  show projEntry m c main_v8 _ = _
  have e : ((cfg0.win 6).blk t).view.emb (ix2 (0 : Fin 1) q) = (ix2 (0 : Fin 1) q : S1x1024.Idx) := by
    funext a
    apply Fin.ext
    match a with
    | ⟨0, _⟩ => show win0_6.index t (0 : Fin 2) * 1 + 1 * 0 = 0; rw [h0]
    | ⟨1, _⟩ => show win0_6.index t (1 : Fin 2) * 1024 + 1 * q.val = q.val; rw [h1]; omega
  rw [e, entry_v8]
  exact bias_row_apply _ q

/-- The second result array as one function of the arguments: the linear layer of the activations with the second
    weight and bias arguments (arguments 1 and 2). -/
abbrev GK (c : Dev nD) : S8192x1024.Idx → EReal := fun i =>
  Cert.Attn.proj (m ((c : Thread nD τ).loc main_arg0) : S8192x1024.Idx → EReal)
    (m ((c : Thread nD τ).loc main_arg1) : S1024x1024.Idx → EReal)
    (m ((c : Thread nD τ).loc main_arg2) : S1024.Idx → EReal) (i 0) (i 1)

/-- What point t writes back to the second result array is block t of that function. -/
theorem flushed8_eq (c : Dev nD) (t : Fin cfg0.N) :
    (dat0 (projEntry m) c).flushed 8 t = ((cfg0.win 8).blk t).view.read (Elt Ideal) (GK m c) := by
  show (cfg0.win 8).cut (grid0.coords t) ((dat0 (projEntry m) c).after 8 t) = _
  rw [after0_8]
  unfold out0_8
  rw [View.canon_unit_zero hz2]
  simp only [View.ld_unit_zero (S := S512x1024) hz2, View.ld_unit_zero (S := S1024x1024) hz2, View.ld_unit_zero (S := S1x1024) hz2]
  obtain ⟨-, -, -, -, -, -, -, -, -, -, -, -, -, -, -, -, h0, h1, -⟩ := idx_facts0 t
  have hN : cfg0.N = 16 := N_0
  have ht : t.val < 16 := by have := t.isLt; omega
  funext j
  show (k0_pay3 (iblk0 (projEntry m) c 0 t) (iblk0 (projEntry m) c 2 t) (iblk0 (projEntry m) c 5 t) : FVec Ideal S512x1024 .bf16) j
    = GK m c (((cfg0.win 8).blk t).view.emb j)
  exact block_eq _ _ _ (iblk0 (projEntry m) c 0 t) (iblk0 (projEntry m) c 2 t) (iblk0 (projEntry m) c 5 t) _
    (pay3_apply _ _ _) t.val ht (iblk_x_apply m c t) (iblk_w2_apply m c t) (iblk_b5_apply m c t) j _
    (by show win0_8.index t (0 : Fin 2) * 512 + 1 * (j 0).val = 512 * t.val + (j 0).val; rw [h0]; omega)
    (by show win0_8.index t (1 : Fin 2) * 1024 + 1 * (j 1).val = (j 1).val; rw [h1]; omega)

/-- An index of the second result array is in point t's block iff each coordinate is in the block's range. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v9_1).slice (win0_8.rect t)).set ↔ _
  rw [View.set_slice_whole, Rect.mem_set_unit]
  exact Iff.rfl

/-- Row r of the second result array is in the block of point r / 512. -/
theorem cover8 (i : S8192x1024.Idx) :
    ∃ t : Fin cfg0.N, (cfg0.win 8).flush t = true ∧ i ∈ ((cfg0.win 8).blk t).view.set := by
  have hN : cfg0.N = 16 := N_0
  have hi0 : (i 0).val < 8192 := (i 0).isLt
  have hi1 : (i 1).val < 1024 := (i 1).isLt
  obtain ⟨t, ht⟩ : ∃ t : Fin cfg0.N, t.val = (i 0).val / 512 := ⟨⟨(i 0).val / 512, by omega⟩, rfl⟩
  obtain ⟨-, -, -, -, -, -, -, -, -, -, -, -, -, -, -, -, h0, h1, -⟩ := idx_facts0 t
  refine ⟨t, flush0_8 t, ?_⟩
  rw [mem_blk8]
  intro a
  match a with
  | ⟨0, _⟩ =>
    show win0_8.index t (0 : Fin 2) * 512 ≤ (i 0).val ∧ (i 0).val < win0_8.index t (0 : Fin 2) * 512 + 512
    rw [h0]; omega
  | ⟨1, _⟩ =>
    show win0_8.index t (1 : Fin 2) * 1024 ≤ (i 1).val ∧ (i 1).val < win0_8.index t (1 : Fin 2) * 1024 + 1024
    rw [h1]; omega

/-- The second result array after the region: the linear layer of the specification, index by index. -/
theorem projK (c : Dev nD) : (dat0 (projEntry m) c).arrAt 8 cfg0.N = GK m c :=
  (dat0 (projEntry m) c).arrAt_eq_of_cover 8 (GK m c) (fun t _ => flushed8_eq m c t) cover8

/-- The third result array as one function of the arguments: the linear layer of the activations with the third
    weight and bias arguments (arguments 5 and 6). -/
abbrev GV (c : Dev nD) : S8192x1024.Idx → EReal := fun i =>
  Cert.Attn.proj (m ((c : Thread nD τ).loc main_arg0) : S8192x1024.Idx → EReal)
    (m ((c : Thread nD τ).loc main_arg5) : S1024x1024.Idx → EReal)
    (m ((c : Thread nD τ).loc main_arg6) : S1024.Idx → EReal) (i 0) (i 1)

/-- What point t writes back to the third result array is block t of that function. -/
theorem flushed9_eq (c : Dev nD) (t : Fin cfg0.N) :
    (dat0 (projEntry m) c).flushed 9 t = ((cfg0.win 9).blk t).view.read (Elt Ideal) (GV m c) := by
  show (cfg0.win 9).cut (grid0.coords t) ((dat0 (projEntry m) c).after 9 t) = _
  rw [after0_9]
  unfold out0_9
  rw [View.canon_unit_zero hz2]
  simp only [View.ld_unit_zero (S := S512x1024) hz2, View.ld_unit_zero (S := S1024x1024) hz2, View.ld_unit_zero (S := S1x1024) hz2]
  obtain ⟨-, -, -, -, -, -, -, -, -, -, -, -, -, -, -, -, -, -, h0, h1⟩ := idx_facts0 t
  have hN : cfg0.N = 16 := N_0
  have ht : t.val < 16 := by have := t.isLt; omega
  funext j
  show (k0_pay4 (iblk0 (projEntry m) c 0 t) (iblk0 (projEntry m) c 3 t) (iblk0 (projEntry m) c 6 t) : FVec Ideal S512x1024 .bf16) j
    = GV m c (((cfg0.win 9).blk t).view.emb j)
  exact block_eq _ _ _ (iblk0 (projEntry m) c 0 t) (iblk0 (projEntry m) c 3 t) (iblk0 (projEntry m) c 6 t) _
    (pay4_apply _ _ _) t.val ht (iblk_x_apply m c t) (iblk_w3_apply m c t) (iblk_b6_apply m c t) j _
    (by show win0_9.index t (0 : Fin 2) * 512 + 1 * (j 0).val = 512 * t.val + (j 0).val; rw [h0]; omega)
    (by show win0_9.index t (1 : Fin 2) * 1024 + 1 * (j 1).val = (j 1).val; rw [h1]; omega)

/-- An index of the third result array is in point t's block iff each coordinate is in the block's range. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v9_2).slice (win0_9.rect t)).set ↔ _
  rw [View.set_slice_whole, Rect.mem_set_unit]
  exact Iff.rfl

/-- Row r of the third result array is in the block of point r / 512. -/
theorem cover9 (i : S8192x1024.Idx) :
    ∃ t : Fin cfg0.N, (cfg0.win 9).flush t = true ∧ i ∈ ((cfg0.win 9).blk t).view.set := by
  have hN : cfg0.N = 16 := N_0
  have hi0 : (i 0).val < 8192 := (i 0).isLt
  have hi1 : (i 1).val < 1024 := (i 1).isLt
  obtain ⟨t, ht⟩ : ∃ t : Fin cfg0.N, t.val = (i 0).val / 512 := ⟨⟨(i 0).val / 512, by omega⟩, rfl⟩
  obtain ⟨-, -, -, -, -, -, -, -, -, -, -, -, -, -, -, -, -, -, h0, h1⟩ := idx_facts0 t
  refine ⟨t, flush0_9 t, ?_⟩
  rw [mem_blk9]
  intro a
  match a with
  | ⟨0, _⟩ =>
    show win0_9.index t (0 : Fin 2) * 512 ≤ (i 0).val ∧ (i 0).val < win0_9.index t (0 : Fin 2) * 512 + 512
    rw [h0]; omega
  | ⟨1, _⟩ =>
    show win0_9.index t (1 : Fin 2) * 1024 ≤ (i 1).val ∧ (i 1).val < win0_9.index t (1 : Fin 2) * 1024 + 1024
    rw [h1]; omega

/-- The third result array after the region: the linear layer of the specification, index by index. -/
theorem projV (c : Dev nD) : (dat0 (projEntry m) c).arrAt 9 cfg0.N = GV m c :=
  (dat0 (projEntry m) c).arrAt_eq_of_cover 9 (GV m c) (fun t _ => flushed9_eq m c t) cover9

end Blocks

end Cert.KernelIdeal.Hand

end
-- ==== Proof.OutGlue.lean ====
/-
  The whole function on real arrays, in streamed form: the three linear layers over the reals, and the result's
  entry at an index as the streamed quotient over the 8 tiles of that row's scores.
-/
import proofs.«104552_j73632919323068_2_alg».proof.Proof.OnlineSoftmax

noncomputable section

open scoped BigOperators

namespace Cert.Attn

open Idealize.ShloMosaic Idealize.ShloMosaic.ValueIdx

/-- A linear layer over the reals at (r, o). -/
def projR (x' : (⟨2, ![8192, 1024]⟩ : Shape).Idx → ℝ) (w' : (⟨2, ![1024, 1024]⟩ : Shape).Idx → ℝ)
    (b' : (⟨1, ![1024]⟩ : Shape).Idx → ℝ) (r : Fin 8192) (o : Fin 1024) : ℝ :=
  (∑ c : Fin 1024, x' (ix2 r c) * w' (ix2 o c)) + b' (ix1 o)

/-- The linear layer of coerced real arrays is the coercion of the real linear layer, as functions. -/
theorem proj_coe_fun (x' : (⟨2, ![8192, 1024]⟩ : Shape).Idx → ℝ) (w' : (⟨2, ![1024, 1024]⟩ : Shape).Idx → ℝ)
    (b' : (⟨1, ![1024]⟩ : Shape).Idx → ℝ) :
    proj (fun i => (x' i : EReal)) (fun i => (w' i : EReal)) (fun i => (b' i : EReal))
      = fun r o => ((projR x' w' b' r o : ℝ) : EReal) := by
  funext r o
  exact proj_coe x' w' b' r o

/-- The whole function on real arrays: entry i of the result is the streamed quotient over the 8 tiles of row
    i 0 of the scores, with column i 1 of the value layer as values. -/
theorem out_coe_eq_stream (x' : (⟨2, ![8192, 1024]⟩ : Shape).Idx → ℝ)
    (wk' : (⟨2, ![1024, 1024]⟩ : Shape).Idx → ℝ) (bk' : (⟨1, ![1024]⟩ : Shape).Idx → ℝ)
    (wq' : (⟨2, ![1024, 1024]⟩ : Shape).Idx → ℝ) (bq' : (⟨1, ![1024]⟩ : Shape).Idx → ℝ)
    (wv' : (⟨2, ![1024, 1024]⟩ : Shape).Idx → ℝ) (bv' : (⟨1, ![1024]⟩ : Shape).Idx → ℝ)
    (i : (⟨2, ![8192, 1024]⟩ : Shape).Idx) :
    out (fun a => (x' a : EReal)) (fun a => (wk' a : EReal)) (fun a => (bk' a : EReal))
        (fun a => (wq' a : EReal)) (fun a => (bq' a : EReal)) (fun a => (wv' a : EReal)) (fun a => (bv' a : EReal)) i
      = Ideal.div
          (stream (fun k j => (tile (fun t => ∑ c : Fin 1024, projR x' wq' bq' (i 0) c * projR x' wk' bk' t c) k j : EReal))
            (fun k j => (tile (fun t => projR x' wv' bv' t (i 1)) k j : EReal)) 8).2.2
          (stream (fun k j => (tile (fun t => ∑ c : Fin 1024, projR x' wq' bq' (i 0) c * projR x' wk' bk' t c) k j : EReal))
            (fun k j => (tile (fun t => projR x' wv' bv' t (i 1)) k j : EReal)) 8).2.1 := by
  unfold out
  rw [proj_coe_fun, proj_coe_fun, proj_coe_fun]
  exact attn_coe_eq_stream (projR x' wq' bq') (projR x' wk' bk') (projR x' wv' bv') (i 0) (i 1)

end Cert.Attn

end
-- ==== Proof.Finite.lean ====
/-
  From the precondition to real entries.

  The precondition compares every entry of every argument array, in absolute value `max x (-x)`, with plus infinity,
  reduces each comparison array by `and` from one, and conjoins the seven results. Read back: every entry of every
  argument is an extended real strictly between the two infinities, that is, the image of a real number. The
  algebraic laws that fail at the infinities (distributing a product over a sum, cancelling) are applied to these.
-/
import proofs.«104552_j73632919323068_2_alg».proof.Defs
import proofs.«104552_j73632919323068_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Attn

open Idealize.ShloMosaic Idealize.ShloMosaic.ValueIdx Idealize.ShloMosaic.TcCoe Idealize.SL.Sem

/-- The pattern `0x7F800000` is plus infinity, the top of the extended reals. -/
theorem ofBits_pos_inf : Ideal.ofBits .f32 0x7F800000#32 = (⊤ : EReal) := by
  simp [Ideal.ofBits, Ideal.ieee]

/-- An extended real whose absolute value `max x (-x)` is below plus infinity is a real. -/
theorem real_of_abs_lt_top (x : EReal) (h : Ideal.cmp .olt (max x (-x)) ⊤ = 1#1) : x = ((x.toReal : ℝ) : EReal) := by
  induction x using EReal.rec with
  | bot => exact absurd h (by simp [Ideal.cmp])
  | coe r => simp
  | top => exact absurd h (by simp [Ideal.cmp])

/-- The scalar shape has one index. -/
instance : Subsingleton Cert.Pre_finite_inputs.S_.Idx := ⟨fun a b => funext fun d => d.elim0⟩

/-- An array compared entry by entry, in absolute value, against a broadcast plus infinity: where the comparison holds
    everywhere, every entry is a real. -/
theorem real_of_all_lt {S : Shape} (hb : Cert.Pre_finite_inputs.S_.BroadcastsInDim S (![] : Fin 0 → Fin S.rank))
    (x : FVec Ideal S .f32)
    (h : ∀ i, cmpf .olt (Host.absf x)
      (broadcastInDim S ![] hb (constant (F := Ideal) Cert.Pre_finite_inputs.S_ .f32 0x7F800000#32)) i = 1#1) :
    ∃ f : S.Idx → ℝ, x = fun i => ((f i : ℝ) : EReal) := by
  refine ⟨fun i => (x i).toReal, funext fun i => ?_⟩
  have hi := h i
  rw [cmpf_apply, broadcastInDim_apply _ hb _ i ix0 (fun a => a.elim0)] at hi
  exact real_of_abs_lt_top (x i) (by
    have e : (constant (F := Ideal) Cert.Pre_finite_inputs.S_ .f32 0x7F800000#32) ix0 = (⊤ : EReal) := ofBits_pos_inf
    rw [e] at hi
    exact hi)

/-- The precondition, read back: it is a conjunction of seven "all entries below plus infinity in absolute value"
    tests, one per argument array, so every argument array has real entries. -/
theorem real_of_finite_inputs
    (a0 : FVec Ideal Cert.Pre_finite_inputs.S8192x1024 .f32) (a1 : FVec Ideal Cert.Pre_finite_inputs.S1024x1024 .f32)
    (a2 : FVec Ideal Cert.Pre_finite_inputs.S1024 .f32) (a3 : FVec Ideal Cert.Pre_finite_inputs.S1024x1024 .f32)
    (a4 : FVec Ideal Cert.Pre_finite_inputs.S1024 .f32) (a5 : FVec Ideal Cert.Pre_finite_inputs.S1024x1024 .f32)
    (a6 : FVec Ideal Cert.Pre_finite_inputs.S1024 .f32)
    (h : Cert.Pre_finite_inputs.fn (F := Ideal) a0 a1 a2 a3 a4 a5 a6 = fun _ => 1#1) :
    (∃ f : (⟨2, ![8192, 1024]⟩ : Shape).Idx → ℝ, a0 = fun i => ((f i : ℝ) : EReal))
    ∧ (∃ f : (⟨2, ![1024, 1024]⟩ : Shape).Idx → ℝ, a1 = fun i => ((f i : ℝ) : EReal))
    ∧ (∃ f : (⟨1, ![1024]⟩ : Shape).Idx → ℝ, a2 = fun i => ((f i : ℝ) : EReal))
    ∧ (∃ f : (⟨2, ![1024, 1024]⟩ : Shape).Idx → ℝ, a3 = fun i => ((f i : ℝ) : EReal))
    ∧ (∃ f : (⟨1, ![1024]⟩ : Shape).Idx → ℝ, a4 = fun i => ((f i : ℝ) : EReal))
    ∧ (∃ f : (⟨2, ![1024, 1024]⟩ : Shape).Idx → ℝ, a5 = fun i => ((f i : ℝ) : EReal))
    ∧ (∃ f : (⟨1, ![1024]⟩ : Shape).Idx → ℝ, a6 = fun i => ((f i : ℝ) : EReal)) := by
  have h0 := congrFun h ix0
  dsimp only [Cert.Pre_finite_inputs.fn, Cert.Pre_finite_inputs.fn_part1] at h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact ⟨real_of_all_lt _ a0 (Host.reduce_andi_all _ _ _ _ ix0 r0),
    real_of_all_lt _ a1 (Host.reduce_andi_all _ _ _ _ ix0 r1),
    real_of_all_lt _ a2 (Host.reduce_andi_all _ _ _ _ ix0 r2),
    real_of_all_lt _ a3 (Host.reduce_andi_all _ _ _ _ ix0 r3),
    real_of_all_lt _ a4 (Host.reduce_andi_all _ _ _ _ ix0 r4),
    real_of_all_lt _ a5 (Host.reduce_andi_all _ _ _ _ ix0 r5),
    real_of_all_lt _ a6 (Host.reduce_andi_all _ _ _ _ ix0 r6)⟩

/-- Under the kernel's precondition every argument array of the launch memory has real entries, on every device. -/
theorem finite_args (m : (ℓ : Loc Cert.KernelIdeal.nD Cert.KernelIdeal.τ Cert.KernelIdeal.sig) → Buf (Elt Ideal) ℓ)
    (hpre : Cert.Pre_KernelIdeal m) (c : Dev Cert.KernelIdeal.nD) :
    (∃ f : (⟨2, ![8192, 1024]⟩ : Shape).Idx → ℝ,
        m ((c.tc : Thread Cert.KernelIdeal.nD Cert.KernelIdeal.τ).loc Cert.KernelIdeal.main_arg0) = fun i => ((f i : ℝ) : EReal))
    ∧ (∃ f : (⟨2, ![1024, 1024]⟩ : Shape).Idx → ℝ,
        m ((c.tc : Thread Cert.KernelIdeal.nD Cert.KernelIdeal.τ).loc Cert.KernelIdeal.main_arg1) = fun i => ((f i : ℝ) : EReal))
    ∧ (∃ f : (⟨1, ![1024]⟩ : Shape).Idx → ℝ,
        m ((c.tc : Thread Cert.KernelIdeal.nD Cert.KernelIdeal.τ).loc Cert.KernelIdeal.main_arg2) = fun i => ((f i : ℝ) : EReal))
    ∧ (∃ f : (⟨2, ![1024, 1024]⟩ : Shape).Idx → ℝ,
        m ((c.tc : Thread Cert.KernelIdeal.nD Cert.KernelIdeal.τ).loc Cert.KernelIdeal.main_arg3) = fun i => ((f i : ℝ) : EReal))
    ∧ (∃ f : (⟨1, ![1024]⟩ : Shape).Idx → ℝ,
        m ((c.tc : Thread Cert.KernelIdeal.nD Cert.KernelIdeal.τ).loc Cert.KernelIdeal.main_arg4) = fun i => ((f i : ℝ) : EReal))
    ∧ (∃ f : (⟨2, ![1024, 1024]⟩ : Shape).Idx → ℝ,
        m ((c.tc : Thread Cert.KernelIdeal.nD Cert.KernelIdeal.τ).loc Cert.KernelIdeal.main_arg5) = fun i => ((f i : ℝ) : EReal))
    ∧ (∃ f : (⟨1, ![1024]⟩ : Shape).Idx → ℝ,
        m ((c.tc : Thread Cert.KernelIdeal.nD Cert.KernelIdeal.τ).loc Cert.KernelIdeal.main_arg6) = fun i => ((f i : ℝ) : EReal)) :=
  real_of_finite_inputs _ _ _ _ _ _ _ (hpre c)

end Cert.Attn

end
-- ==== Proof.KernelValue.lean ====
/-
  The kernel's result is the specification. The projection region leaves Q, K, V = the three linear layers of the
  arguments; the attention region leaves, at `(r, d)`, the streamed quotient over the eight key tiles of row `r` of the
  scores Q·Kᵀ with column `d` of V as values. When every argument entry is a real number (the precondition), every entry
  of Q, K, V and every score is a real number, and the streamed quotient is the softmax-weighted sum.
-/
import proofs.«104552_j73632919323068_2_alg».proof.Proof.KernelIdeal.Run
import proofs.«104552_j73632919323068_2_alg».proof.Proof.KernelIdeal.FlashValue
import proofs.«104552_j73632919323068_2_alg».proof.Proof.KernelIdeal.ProjValue
import proofs.«104552_j73632919323068_2_alg».proof.Proof.OutGlue
import proofs.«104552_j73632919323068_2_alg».proof.Proof.Finite

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem

variable (m : (ℓ : Loc nD τ sig) → Buf (Elt Ideal) ℓ)

/-- The attention region finds the three linear layers of the arguments in its input arrays. -/
theorem QA_eq (c : Dev nD) : QA (E2 m) c = GQ m c := (W2_arr m c 7).trans (projQ m c)
theorem KA_eq (c : Dev nD) : KA (E2 m) c = GK m c := (W2_arr m c 8).trans (projK m c)
theorem VA_eq (c : Dev nD) : VA (E2 m) c = GV m c := (W2_arr m c 9).trans (projV m c)

/-- Under the precondition the result array ends holding the specification of the argument arrays. -/
theorem kernel_value (hpre : Cert.Pre_KernelIdeal m) (c : Dev nD) :
    (dat1 (E2 m) c).arrAt 3 cfg1.N
      = Cert.Attn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  rw [final3]
  obtain ⟨⟨x, hx⟩, ⟨wk, hwk⟩, ⟨bk, hbk⟩, ⟨wq, hwq⟩, ⟨bq, hbq⟩, ⟨wv, hwv⟩, ⟨bv, hbv⟩⟩ := Cert.Attn.finite_args m hpre c
  have hQ : QA (E2 m) c = fun i => ((projR x wq bq (i 0) (i 1) : ℝ) : EReal) := by
    rw [QA_eq]; unfold GQ; rw [hx, hwq, hbq, proj_coe_fun]
  have hK : KA (E2 m) c = fun i => ((projR x wk bk (i 0) (i 1) : ℝ) : EReal) := by
    rw [KA_eq]; unfold GK; rw [hx, hwk, hbk, proj_coe_fun]
  have hV : VA (E2 m) c = fun i => ((projR x wv bv (i 0) (i 1) : ℝ) : EReal) := by
    rw [VA_eq]; unfold GV; rw [hx, hwv, hbv, proj_coe_fun]
  funext i
  rw [hx, hwk, hbk, hwq, hbq, hwv, hbv, out_coe_eq_stream]
  unfold G
  have hs : sT (E2 m) c (i 0) = fun k j => ((tile (fun t => ∑ cc : Fin 1024, projR x wq bq (i 0) cc * projR x wk bk t cc) k j : ℝ) : EReal) := by
    funext k j
    unfold sT
    rw [hQ, hK]
    unfold tile
    rw [coe_sum]
    exact Finset.sum_congr rfl fun cc _ => (EReal.coe_mul _ _).symm
  have hv : vT (E2 m) c (i 1) = fun k j => ((tile (fun t => projR x wv bv t (i 1)) k j : ℝ) : EReal) := by
    funext k j
    unfold vT
    rw [hV]
    rfl
  rw [hs, hv]

end Cert.KernelIdeal.Hand

end
-- ==== Proof.RefValue.lean ====
/-
  The reference program computes the specification.

  Read one operation at a time, the reference is: three linear layers (the input against a transposed weight,
  plus a bias broadcast down the rows), the score array (the query rows against the transposed key rows), the
  row maxima (a maximum-reduce from minus infinity along the second axis, and once more the maximum with minus
  infinity), the exponentials of the scores less their row's maximum, the row sums (a sum-reduce from zero), the
  quotients, and their product with the value rows. Index by index each stage is the corresponding function of
  the specification, in the same order of operations, so no arithmetic law is used beyond `max ⊥ x = x`,
  `0 + x = x`, and a fold of `max` from `⊥` being the supremum.
-/
import proofs.«104552_j73632919323068_2_alg».proof.Defs
import proofs.«104552_j73632919323068_2_alg».proof.Proof.Spec
import proofs.«104552_j73632919323068_2_alg».proof.Proof.Gen.ReferenceIdeal
import proofs.«104552_j73632919323068_2_alg».proof.Proof.Gen.Pre_finite_inputs
import proofs.«104552_j73632919323068_2_alg».proof.Proof.Gen.ReferenceIdeal.Run
import proofs.«104552_j73632919323068_2_alg».proof.Proof.Gen.ReferenceIdeal.Read

noncomputable section

open scoped BigOperators

namespace Cert.Attn

open Idealize.ShloMosaic Idealize.ShloMosaic.ValueIdx Idealize.ShloMosaic.TcCoe Idealize.SL.Sem
open Cert.ReferenceIdeal Cert.ReferenceIdeal.Gen Cert.ReferenceIdeal.Read

/-! ## The three linear layers and the scores -/

/-- The key layer at `(r, o)`: row `r` of the input against row `o` of the weight, plus the bias. -/
theorem key_apply (a0 : Mat 8192 1024) (a1 : Mat 1024 1024) (a2 : Vc 1024) (r : Fin 8192) (o : Fin 1024) :
    val_main_v4 (F := Ideal) a0 a1 a2 (ix2 r o) = proj a0 a1 a2 r o := by
  have el : ∀ k : Fin 1024, lidx_main_v1 (ix2 r o) k = ix2 r k := fun k =>
    funext fun a => by match a with | ⟨0, _⟩ => rfl | ⟨1, _⟩ => rfl
  have er : ∀ k : Fin 1024, idx_main_v0 (ridx_main_v1 (ix2 r o) k) = ix2 o k := fun k =>
    funext fun a => by match a with | ⟨0, _⟩ => rfl | ⟨1, _⟩ => rfl
  have eb : idx_main_v2 (idx_main_v3 (ix2 r o)) = ix1 o :=
    funext fun a => by match a with | ⟨0, _⟩ => rfl
  rw [val_main_v4_apply, val_main_v1_apply, val_main_v3_apply, val_main_v2_apply, eb]
  simp only [val_main_v0_apply, el, er]
  rfl

/-- The query layer at `(r, o)`. -/
theorem query_apply (a0 : Mat 8192 1024) (a3 : Mat 1024 1024) (a4 : Vc 1024) (r : Fin 8192) (o : Fin 1024) :
    val_main_v9 (F := Ideal) a0 a3 a4 (ix2 r o) = proj a0 a3 a4 r o := by
  have el : ∀ k : Fin 1024, lidx_main_v6 (ix2 r o) k = ix2 r k := fun k =>
    funext fun a => by match a with | ⟨0, _⟩ => rfl | ⟨1, _⟩ => rfl
  have er : ∀ k : Fin 1024, idx_main_v5 (ridx_main_v6 (ix2 r o) k) = ix2 o k := fun k =>
    funext fun a => by match a with | ⟨0, _⟩ => rfl | ⟨1, _⟩ => rfl
  have eb : idx_main_v7 (idx_main_v8 (ix2 r o)) = ix1 o :=
    funext fun a => by match a with | ⟨0, _⟩ => rfl
  rw [val_main_v9_apply, val_main_v6_apply, val_main_v8_apply, val_main_v7_apply, eb]
  simp only [val_main_v5_apply, el, er]
  rfl

/-- The value layer at `(r, o)`. -/
theorem value_apply (a0 : Mat 8192 1024) (a5 : Mat 1024 1024) (a6 : Vc 1024) (r : Fin 8192) (o : Fin 1024) :
    val_main_v14 (F := Ideal) a0 a5 a6 (ix2 r o) = proj a0 a5 a6 r o := by
  have el : ∀ k : Fin 1024, lidx_main_v11 (ix2 r o) k = ix2 r k := fun k =>
    funext fun a => by match a with | ⟨0, _⟩ => rfl | ⟨1, _⟩ => rfl
  have er : ∀ k : Fin 1024, idx_main_v10 (ridx_main_v11 (ix2 r o) k) = ix2 o k := fun k =>
    funext fun a => by match a with | ⟨0, _⟩ => rfl | ⟨1, _⟩ => rfl
  have eb : idx_main_v12 (idx_main_v13 (ix2 r o)) = ix1 o :=
    funext fun a => by match a with | ⟨0, _⟩ => rfl
  rw [val_main_v14_apply, val_main_v11_apply, val_main_v13_apply, val_main_v12_apply, eb]
  simp only [val_main_v10_apply, el, er]
  rfl

/-- The score array at `(r, j)`: query row `r` against key row `j` (the transposed key array read back). -/
theorem score_apply (a0 : Mat 8192 1024) (a1 : Mat 1024 1024) (a2 : Vc 1024) (a3 : Mat 1024 1024) (a4 : Vc 1024)
    (r j : Fin 8192) :
    val_main_v16 (F := Ideal) a0 a1 a2 a3 a4 (ix2 r j) = score (proj a0 a3 a4) (proj a0 a1 a2) r j := by
  have el : ∀ k : Fin 1024, lidx_main_v16 (ix2 r j) k = ix2 r k := fun k =>
    funext fun a => by match a with | ⟨0, _⟩ => rfl | ⟨1, _⟩ => rfl
  have er : ∀ k : Fin 1024, idx_main_v15 (ridx_main_v16 (ix2 r j) k) = ix2 j k := fun k =>
    funext fun a => by match a with | ⟨0, _⟩ => rfl | ⟨1, _⟩ => rfl
  rw [val_main_v16_apply]
  unfold score
  refine Finset.sum_congr rfl fun k _ => ?_
  rw [val_main_v15_apply, el, er, query_apply, key_apply]

/-! ## The row maxima -/

/-- The pattern `0xFF800000` is minus infinity, the bottom of the extended reals. -/
theorem ofBits_neg_inf : Ideal.ofBits .f32 0xFF800000#32 = (⊥ : EReal) := by
  simp [Ideal.ofBits, Ideal.ieee]

/-- The reduction of a square array along its second axis. -/
theorem reduces_rows : S8192x8192.Reduces [1] S8192 := by decide

/-- The row index `r` with column `k` put back is `(r, k)`. -/
theorem lift_row (r : Fin 8192) (k : Fin (S8192x8192.size 1)) :
    reduces_rows.lift (ix1 r) k = ix2 r (⟨k.val, k.isLt⟩ : Fin 8192) := by
  funext c; apply Fin.ext
  fin_cases c <;> rfl

/-- A fold of `max` from the bottom element is the supremum. -/
theorem fold_max_bot {ι : Type} [Fintype ι] (f : ι → EReal) :
    (Finset.univ : Finset ι).fold max ⊥ f = Finset.univ.sup f := rfl

/-- A maximum-reduce from minus infinity along the second axis is the row's supremum. -/
theorem reduce_max_rows (x : S8192x8192.Idx → EReal) (r : Fin 8192) :
    Host.reduce (FloatOps.maximumf (F := Ideal) (φ := .f32)) x (val_main_cst (F := Ideal))
        reducesTo_S8192x8192_S8192_d1 h_S_ (ix1 r)
      = Finset.univ.sup fun j : Fin 8192 => x (ix2 r j) := by
  refine (Host.reduce_eq_fold_single (FloatOps.maximumf (F := Ideal) (φ := .f32)) x (val_main_cst (F := Ideal))
    reducesTo_S8192x8192_S8192_d1 reduces_rows h_S_ (ix1 r)).trans ?_
  have hf : (x ∘ reduces_rows.lift (ix1 r)) = fun k : Fin 8192 => x (ix2 r k) :=
    funext fun k => congrArg x (lift_row r k)
  rw [val_main_cst_apply, Ideal.ofBits_def, ofBits_neg_inf]
  exact (congrArg (fun f => Finset.fold max (⊥ : EReal) f (Finset.univ : Finset (Fin 8192))) hf).trans
    (fold_max_bot _)

/-! ## The softmax and the result -/

/-- The row maxima at `r`: the maximum of minus infinity and the row's reduce is the row's largest score. -/
theorem rowMax_apply (a0 : Mat 8192 1024) (a1 : Mat 1024 1024) (a2 : Vc 1024) (a3 : Mat 1024 1024) (a4 : Vc 1024)
    (r : Fin 8192) :
    val_main_v19 (F := Ideal) a0 a1 a2 a3 a4 (ix1 r) = rowMax (proj a0 a3 a4) (proj a0 a1 a2) r := by
  rw [val_main_v19_apply, val_main_v18_apply, val_main_cst_0_apply, Ideal.ofBits_def, ofBits_neg_inf]
  unfold val_main_v17
  rw [reduce_max_rows, Ideal.maximumf_def, max_eq_right bot_le]
  unfold rowMax
  exact congrArg (fun f => Finset.univ.sup f) (funext fun j => score_apply a0 a1 a2 a3 a4 r j)

/-- The exponentials at `(r, j)`: the score less its row's maximum, exponentiated. -/
theorem exp_apply (a0 : Mat 8192 1024) (a1 : Mat 1024 1024) (a2 : Vc 1024) (a3 : Mat 1024 1024) (a4 : Vc 1024)
    (r j : Fin 8192) :
    val_main_v23 (F := Ideal) a0 a1 a2 a3 a4 (ix2 r j)
      = Ideal.exp (score (proj a0 a3 a4) (proj a0 a1 a2) r j - rowMax (proj a0 a3 a4) (proj a0 a1 a2) r) := by
  have e : idx_main_v20 (idx_main_v21 (ix2 r j)) = ix1 r :=
    funext fun a => by match a with | ⟨0, _⟩ => rfl
  rw [val_main_v23_apply, val_main_v22_apply, val_main_v21_apply, val_main_v20_apply, e, score_apply, rowMax_apply]
  rfl

/-- The row sums at `r`: zero plus the sum of the row's exponentials. -/
theorem rowSum_apply (a0 : Mat 8192 1024) (a1 : Mat 1024 1024) (a2 : Vc 1024) (a3 : Mat 1024 1024) (a4 : Vc 1024)
    (r : Fin 8192) :
    val_main_v24 (F := Ideal) a0 a1 a2 a3 a4 (ix1 r) = rowSum (proj a0 a3 a4) (proj a0 a1 a2) r := by
  have e : ∀ k : Fin 8192, idx_main_v24 (ix1 r) k = ix2 r k := fun k =>
    funext fun a => by match a with | ⟨0, _⟩ => rfl | ⟨1, _⟩ => rfl
  rw [val_main_v24_apply, val_main_cst_1_apply, Ideal.ofBits_def, Ideal.ofBits_zero_f32, zero_add]
  unfold rowSum
  refine Finset.sum_congr rfl fun k _ => ?_
  rw [e, exp_apply]

/-- The softmax weights at `(r, j)`: the exponential over its row's sum. -/
theorem weight_apply (a0 : Mat 8192 1024) (a1 : Mat 1024 1024) (a2 : Vc 1024) (a3 : Mat 1024 1024) (a4 : Vc 1024)
    (r j : Fin 8192) :
    val_main_v27 (F := Ideal) a0 a1 a2 a3 a4 (ix2 r j)
      = Ideal.div (Ideal.exp (score (proj a0 a3 a4) (proj a0 a1 a2) r j - rowMax (proj a0 a3 a4) (proj a0 a1 a2) r))
          (rowSum (proj a0 a3 a4) (proj a0 a1 a2) r) := by
  have e : idx_main_v25 (idx_main_v26 (ix2 r j)) = ix1 r :=
    funext fun a => by match a with | ⟨0, _⟩ => rfl
  rw [val_main_v27_apply, val_main_v26_apply, val_main_v25_apply, e, exp_apply, rowSum_apply]
  rfl

/-- The reference's result array is the specification, index by index. -/
theorem ref_eq (a0 : Mat 8192 1024) (a1 : Mat 1024 1024) (a2 : Vc 1024) (a3 : Mat 1024 1024) (a4 : Vc 1024)
    (a5 : Mat 1024 1024) (a6 : Vc 1024) :
    val_main_v28 (F := Ideal) a0 a1 a2 a3 a4 a5 a6 = out a0 a1 a2 a3 a4 a5 a6 := by
  funext i
  obtain ⟨r, d, rfl⟩ : ∃ (r : Fin 8192) (d : Fin 1024), i = ix2 r d := ⟨i 0, i 1, eq_ix2 i⟩
  have el : ∀ k : Fin 8192, lidx_main_v28 (ix2 r d) k = ix2 r k := fun k =>
    funext fun a => by match a with | ⟨0, _⟩ => rfl | ⟨1, _⟩ => rfl
  have er : ∀ k : Fin 8192, ridx_main_v28 (ix2 r d) k = ix2 k d := fun k =>
    funext fun a => by match a with | ⟨0, _⟩ => rfl | ⟨1, _⟩ => rfl
  rw [val_main_v28_apply]
  show _ = attn (proj a0 a3 a4) (proj a0 a1 a2) (proj a0 a5 a6) r d
  unfold attn
  refine Finset.sum_congr rfl fun k _ => ?_
  rw [el, er, weight_apply, value_apply]

/-! ## The run -/

/-- The term the reference's run states for its result is the specification of the argument arrays. -/
theorem ref_res_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v28 m' c
      = out (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) :=
  (val_main_v28_eq m' c).trans (ref_eq _ _ _ _ _ _ _)

/-- Every weakly fair execution of the reference terminates with its result array at the specification of the
    argument arrays and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v28)
          = out (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono (fun _ h c => ⟨(h c).1.trans (ref_res_eq m' c), (h c).2⟩)
    (Cert.ReferenceIdeal.Value.run (F := Ideal) m' ρ')

/-- The reference runs and leaves its argument arrays unchanged: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

end Cert.Attn

end
-- ==== Proof.lean ====
/-
  Attention with a streaming softmax against the plain softmax, over the extended reals.

  Both programs compute  softmax(Q·Kᵀ)·V  with  Q = x·Wqᵀ + bq,  K = x·Wkᵀ + bk,  V = x·Wvᵀ + bv.  The reference forms the
  whole score matrix, subtracts each row's maximum, exponentiates, divides by the row sum and multiplies by V.  The kernel
  first writes Q, K, V (one region, sixteen row blocks), then visits, for each of eight query tiles, the eight key tiles
  in order, keeping a running row maximum m, denominator l and numerator acc:  m' = max(m, max_j s_j),
  l' = e^(m − m')·l + ∑_j e^(s_j − m'),  acc' = e^(m − m')·acc + ∑_j e^(s_j − m')·v_j,  and stores acc / l after the
  last key tile.  With finite inputs every score is a real number, the running maximum after the first tile is real,
  e^(s − m)·e^(m − m') = e^(s − m'), and after eight tiles l and acc are the row's softmax denominator and the
  unnormalised weighted sum at the row maximum; dividing a finite sum by the positive real l is dividing each term.
  The frames: each region's body is run whole on its staging buffers (the attention body in its three control cases —
  first, middle and last key tile — with the scratch carried in the region's invariant), the regions and the host
  operations before them are composed in order, and no segment writes an argument array.
-/
import proofs.«104552_j73632919323068_2_alg».proof.Defs
import proofs.«104552_j73632919323068_2_alg».proof.Proof.Gen.Kernel
import proofs.«104552_j73632919323068_2_alg».proof.Proof.Gen.KernelIdeal
import proofs.«104552_j73632919323068_2_alg».proof.Proof.Gen.ReferenceIdeal
import proofs.«104552_j73632919323068_2_alg».proof.Proof.Gen.Pre_finite_inputs
import proofs.«104552_j73632919323068_2_alg».proof.Proof.Kernel.Run
import proofs.«104552_j73632919323068_2_alg».proof.Proof.KernelValue
import proofs.«104552_j73632919323068_2_alg».proof.Proof.RefValue

noncomputable section

namespace Cert.Proof

open Idealize.ShloMosaic Idealize.SL.Sem

/-- The kernel as printed terminates, faults nowhere and leaves its arguments unchanged. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- And the reference. -/
theorem frame_r : Cert.frame_ReferenceIdeal := Cert.Attn.frame_ref

/-- Run from memories agreeing on the arguments, both programs end with the specification of the arguments in their
    result arrays: the kernel by the streaming-softmax law (finite inputs), the reference by reading its operations. -/
theorem algebraic : Cert.algebraic_KernelIdeal_ReferenceIdeal := by
  intro m ρ m' ρ' hpre hagree
  refine ⟨fun c => Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.kernel_value m hpre c), (h c).2⟩)
      (Cert.KernelIdeal.Hand.run_result (F := Ideal) m ρ)
  · refine (θ_run Cert.ReferenceIdeal.defs _ _).mono (fun r h c => ⟨(h c).1.trans ?_, (h c).2⟩) (Cert.Attn.ref_run m' ρ')
    obtain ⟨h0, h1, h2, h3, h4, h5, h6⟩ := hagree c
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
